-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3072x1024 : Shape := ⟨3, ![4, 3072, 1024]⟩
abbrev S3072x1024 : Shape := ⟨2, ![3072, 1024]⟩
abbrev S_ : Shape := ⟨0, ![]⟩

class Facts : Prop where
  bcast_S_S4x3072x1024 : S_.BroadcastsInDim S4x3072x1024 (![] : Fin 0 → Fin S4x3072x1024.rank)
  reducesTo_S4x3072x1024_S_d0_1_2 : S4x3072x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_

variable [Facts]

def fn {F : FTy → Type} [FloatOps F] (main_arg0 : FVec F S4x3072x1024 .f32) (main_arg1 : FVec F S3072x1024 .f32) : IVec S_ 1 :=
  let main_v0 : FVec F S4x3072x1024 .f32 := Host.absf main_arg0
  let main_cst : FVec F S_ .f32 := constant S_ .f32 0x7F800000#32
  let main_v1 : FVec F S4x3072x1024 .f32 := broadcastInDim S4x3072x1024 ![] bcast_S_S4x3072x1024 main_cst
  let main_v2 : IVec S4x3072x1024 1 := cmpf .olt main_v0 main_v1
  let main_c : IVec S_ 1 := constantI S_ 1 1#1
  let main_v3 : IVec S_ 1 := (fun x v => Host.reduce IntOp.andi x v reducesTo_S4x3072x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  main_v8
-- ==== Kernel.lean ====
abbrev S4x3072x1024 : Shape := ⟨3, ![4, 3072, 1024]⟩
abbrev S3072x1024 : Shape := ⟨2, ![3072, 1024]⟩
abbrev S12288x1024 : Shape := ⟨2, ![12288, 1024]⟩
abbrev S12288x3072 : Shape := ⟨2, ![12288, 3072]⟩
abbrev S512x1024 : Shape := ⟨2, ![512, 1024]⟩
abbrev S512x3072 : Shape := ⟨2, ![512, 3072]⟩
abbrev S4x3072x3072 : Shape := ⟨3, ![4, 3072, 3072]⟩
abbrev S4x1024x3072 : Shape := ⟨3, ![4, 1024, 3072]⟩
abbrev S1x256x3072 : Shape := ⟨3, ![1, 256, 3072]⟩
abbrev S1x1024x3072 : Shape := ⟨3, ![1, 1024, 3072]⟩
abbrev S256x3072 : Shape := ⟨2, ![256, 3072]⟩
abbrev S1024x3072 : Shape := ⟨2, ![1024, 3072]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 13
  | .smem => 0
  | _ => 0

abbrev bufTy : (tb : Table) → Fin (tcTables nBuf tb) → BufTy
  | .hbm, ⟨0, _⟩ => ⟨S4x3072x1024, .f32⟩
  | .hbm, ⟨1, _⟩ => ⟨S3072x1024, .f32⟩
  | .hbm, ⟨2, _⟩ => ⟨S12288x1024, .f32⟩
  | .hbm, ⟨3, _⟩ => ⟨S3072x1024, .bf16⟩
  | .hbm, ⟨4, _⟩ => ⟨S12288x3072, .bf16⟩
  | .hbm, ⟨5, _⟩ => ⟨S4x3072x3072, .bf16⟩
  | .hbm, ⟨6, _⟩ => ⟨S4x1024x3072, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S1x256x3072, .bf16⟩
  | .local _ .vmem, ⟨6, _⟩ => ⟨S1x256x3072, .bf16⟩
  | .local _ .vmem, ⟨7, _⟩ => ⟨S1x1024x3072, .bf16⟩
  | .local _ .vmem, ⟨8, _⟩ => ⟨S1x1024x3072, .bf16⟩
  | .local _ .vmem, ⟨9, _⟩ => ⟨S1x1024x3072, .bf16⟩
  | .local _ .vmem, ⟨10, _⟩ => ⟨S1x1024x3072, .bf16⟩
  | .local _ .vmem, ⟨11, _⟩ => ⟨S1x256x3072, .f32⟩
  | .local _ .vmem, ⟨12, _⟩ => ⟨S1x256x3072, .f32⟩
  | _, _ => ⟨S4x3072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x3072 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x3072x1024_S12288x1024 : S4x3072x1024.ShapeCasts S12288x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S12288x3072_S4x3072x3072 : S12288x3072.ShapeCasts S4x3072x3072
  inb_S1x256x3072_S1x256x3072_0_0_0 : ∀ a, (![0, 0, 0] : Fin 3 → Nat) a + S1x256x3072.size a ≤ S1x256x3072.size a
  h_S1x256x3072 : 0 < S1x256x3072.numel
  shapeCasts_S1x256x3072_S256x3072 : S1x256x3072.ShapeCasts S256x3072
  inb_S1x1024x3072_S1x1024x3072_0_0_0 : ∀ a, (![0, 0, 0] : Fin 3 → Nat) a + S1x1024x3072.size a ≤ S1x1024x3072.size a
  h_S1x1024x3072 : 0 < S1x1024x3072.numel
  shapeCasts_S1x1024x3072_S1024x3072 : S1x1024x3072.ShapeCasts S1024x3072
  reduces_S256x1024_S256 : S256x1024.Reduces [1] S256
  shapeCasts_S256_S256x1 : S256.ShapeCasts S256x1
  broadcasts_S256x1_S256x1024 : S256x1.Broadcasts S256x1024
  shapeCasts_S256x3072_S1x256x3072 : S256x3072.ShapeCasts S1x256x3072
  dot_S512x1024_S3072x1024_S512x3072_1_1_0_0_n_n_wf : DotDims.WF S512x1024 S3072x1024 S512x3072 [1] [1] [0] [0] [] []
  dot_S256x3072_S1024x3072_S256x1024_1_1_0_0_n_n_wf : DotDims.WF S256x3072 S1024x3072 S256x1024 [1] [1] [0] [0] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S12288x1024.size a
  hwx0_0 : ∀ i : grid0.Coords, EltTy.bits .f32 = 32 ∨ (Rect.block (s := S12288x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S12288x3072.size a
  hwx0_2 : ∀ i : grid0.Coords, EltTy.bits .bf16 = 32 ∨ (Rect.block (s := S12288x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x3072.size a ≤ S4x3072x3072.size a
  hwx1_0 : ∀ i : grid1.Coords, EltTy.bits .bf16 = 32 ∨ (Rect.block (s := S4x3072x3072) S1x256x3072.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x3072.size a ≤ S4x3072x3072.size a
  hwx1_1 : ∀ i : grid1.Coords, EltTy.bits .bf16 = 32 ∨ (Rect.block (s := S4x3072x3072) S1x1024x3072.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x3072.size a ≤ S4x3072x3072.size a
  hwx1_2 : ∀ i : grid1.Coords, EltTy.bits .bf16 = 32 ∨ (Rect.block (s := S4x3072x3072) S1x1024x3072.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x3072.size a ≤ S4x1024x3072.size a
  hwx1_3 : ∀ i : grid1.Coords, EltTy.bits .f32 = 32 ∨ (Rect.block (s := S4x1024x3072) S1x256x3072.size (cc1_transform_3 i) (hinb1_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S256x3072_S1024x3072_S256x1024_1_1_0_0_n_n : DotDims S256x3072 S1024x3072 S256x1024 where
  lhsContracting := [1]
  rhsContracting := [1]
  lhsNonContracting := [0]
  rhsNonContracting := [0]
  lhsBatch := []
  rhsBatch := []
  wf := dot_S256x3072_S1024x3072_S256x1024_1_1_0_0_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x256x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x3072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024x3072.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x256x3072.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x3072x1024 : Shape := ⟨3, ![4, 3072, 1024]⟩
abbrev S3072x1024 : Shape := ⟨2, ![3072, 1024]⟩
abbrev S4x3072x3072 : Shape := ⟨3, ![4, 3072, 3072]⟩
abbrev S4x1024x3072 : Shape := ⟨3, ![4, 1024, 3072]⟩
abbrev S_ : Shape := ⟨0, ![]⟩
abbrev S4x1024x1024 : Shape := ⟨3, ![4, 1024, 1024]⟩
abbrev S4x1024 : Shape := ⟨2, ![4, 1024]⟩
abbrev S4x1024x1 : Shape := ⟨3, ![4, 1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x3072x1024, .f32⟩
  | .hbm, ⟨1, _⟩ => ⟨S3072x1024, .f32⟩
  | .hbm, ⟨2, _⟩ => ⟨S4x3072x3072, .f32⟩
  | .hbm, ⟨3, _⟩ => ⟨S4x1024x3072, .f32⟩
  | .hbm, ⟨4, _⟩ => ⟨S4x1024x3072, .f32⟩
  | .hbm, ⟨5, _⟩ => ⟨S4x1024x3072, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x1024x1024, .f32⟩
  | .hbm, ⟨11, _⟩ => ⟨S4x1024x1024, .f32⟩
  | .hbm, ⟨12, _⟩ => ⟨S4x1024x1024, .f32⟩
  | .hbm, ⟨13, _⟩ => ⟨S_, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024x1, .f32⟩
  | .hbm, ⟨19, _⟩ => ⟨S4x1024x1024, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024, .f32⟩
  | .hbm, ⟨24, _⟩ => ⟨S4x1024x1, .f32⟩
  | .hbm, ⟨25, _⟩ => ⟨S4x1024x1024, .f32⟩
  | .hbm, ⟨26, _⟩ => ⟨S4x1024x1024, .f32⟩
  | .hbm, ⟨27, _⟩ => ⟨S4x1024x3072, .f32⟩
  | _, _ => ⟨S4x3072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  slices_S4x3072x3072_S4x1024x3072_0_0_0 : S4x3072x3072.Slices ![0, 0, 0] S4x1024x3072
  slices_S4x3072x3072_S4x1024x3072_0_1024_0 : S4x3072x3072.Slices ![0, 1024, 0] S4x1024x3072
  slices_S4x3072x3072_S4x1024x3072_0_2048_0 : S4x3072x3072.Slices ![0, 2048, 0] S4x1024x3072
  bcast_S_S4x1024x1024 : S_.BroadcastsInDim S4x1024x1024 (![] : Fin 0 → Fin S4x1024x1024.rank)
  reducesTo_S4x1024x1024_S4x1024_d2 : S4x1024x1024.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x1024_0_1_2 : S4x1024x1.BroadcastsInDim S4x1024x1024 (![0, 1, 2] : Fin 3 → Fin S4x1024x1024.rank)
  dot_S4x3072x1024_S3072x1024_S4x3072x3072_2_1_01_0_n_n_wf : DotDims.WF S4x3072x1024 S3072x1024 S4x3072x3072 [2] [1] [0, 1] [0] [] []
  dot_S4x1024x3072_S4x1024x3072_S4x1024x1024_2_2_1_1_0_0_wf : DotDims.WF S4x1024x3072 S4x1024x3072 S4x1024x1024 [2] [2] [1] [1] [0] [0]
  dot_S4x1024x1024_S4x1024x3072_S4x1024x3072_2_1_1_2_0_0_wf : DotDims.WF S4x1024x1024 S4x1024x3072 S4x1024x3072 [2] [1] [1] [2] [0] [0]

variable [Facts₀]

def dot_S4x3072x1024_S3072x1024_S4x3072x3072_2_1_01_0_n_n : DotDims S4x3072x1024 S3072x1024 S4x3072x3072 where
  lhsContracting := [2]
  rhsContracting := [1]
  lhsNonContracting := [0, 1]
  rhsNonContracting := [0]
  lhsBatch := []
  rhsBatch := []
  wf := dot_S4x3072x1024_S3072x1024_S4x3072x3072_2_1_01_0_n_n_wf
def dot_S4x1024x3072_S4x1024x3072_S4x1024x1024_2_2_1_1_0_0 : DotDims S4x1024x3072 S4x1024x3072 S4x1024x1024 where
  lhsContracting := [2]
  rhsContracting := [2]
  lhsNonContracting := [1]
  rhsNonContracting := [1]
  lhsBatch := [0]
  rhsBatch := [0]
  wf := dot_S4x1024x3072_S4x1024x3072_S4x1024x1024_2_2_1_1_0_0_wf
def dot_S4x1024x1024_S4x1024x3072_S4x1024x3072_2_1_1_2_0_0 : DotDims S4x1024x1024 S4x1024x3072 S4x1024x3072 where
  lhsContracting := [2]
  rhsContracting := [1]
  lhsNonContracting := [1]
  rhsNonContracting := [2]
  lhsBatch := [0]
  rhsBatch := [0]
  wf := dot_S4x1024x1024_S4x1024x3072_S4x1024x3072_2_1_1_2_0_0_wf

class Facts : Prop extends Facts₀ where

variable [Facts]
-- ==== Proof.KernelProj.lean ====
/-
  The projection kernel as one region of the program, at ANY float instance: the region is entered with the
  TensorCore's buffers at contents `V`; at grid point `t` (24 points) the body finds rows `512·t … 512·t + 511` of
  the flattened input in its first window, the whole weight in its second (fetched once, kept), and leaves in its
  third window the product block — the body's one stored value of the two blocks it loaded. Stated here: each window's
  block at a point, what the body leaves in the output window, the body's Hoare triple, the pipeline's proof data
  (what every staging buffer holds after every point), and the obligation the pipeline rule asks of the body.
-/
import proofs.«180274_j86199993631019_2_alg».proof.Proof.Gen.Kernel.Launch
import proofs.«180274_j86199993631019_2_alg».proof.Proof.Gen.Kernel.Skeleton
import proofs.«180274_j86199993631019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the last fetch, and the body leaves the block in place. -/
theorem projBefore_0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- Input window 1's current staging buffer holds its block at every point, fetched there or not: where it is not
    fetched its block index has not moved since the last fetch, and the body leaves the block in place. -/
theorem projBefore_1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-- The whole output block, the one rectangle the body stores through. -/
abbrev projRect : Rect S512x3072 := Rect.unit (s := S512x3072) ![0, 0] S512x3072.size inb_S512x3072_S512x3072_0_0
/-- The whole input block and the whole weight, the rectangles the body loads through. -/
abbrev projRectX : Rect S512x1024 := Rect.unit (s := S512x1024) ![0, 0] S512x1024.size inb_S512x1024_S512x1024_0_0
abbrev projRectW : Rect S3072x1024 := Rect.unit (s := S3072x1024) ![0, 0] S3072x1024.size inb_S3072x1024_S3072x1024_0_0

/-- What the body leaves in the output window's buffer: its one store, of the product of the two loaded blocks. -/
def projOut (x0 : Vec F S512x1024 .f32) (w0 : Vec F S3072x1024 .bf16) : Vec F S512x3072 .bf16 :=
  View.canon [⟨projRect, k0_pay1 (View.ld x0 projRectX) (View.ld w0 projRectW)⟩]

/-- The store covers the buffer. -/
theorem projCover (p0 : Vec F S512x3072 .bf16) (y : S512x3072.Idx) :
    ∃ pc ∈ ([⟨projRect, p0⟩] : List (View.Piece (Elt F) S512x3072 .bf16)), y ∈ pc.1.set :=
  View.cover_of_tiled [⟨projRect, p0⟩] S512x3072.size (by rfl) y

set_option maxHeartbeats 1000000 in
/-- The body on whole staging buffers — the inputs' at contents `x0`, `w0`, the output's at anything — runs to its
    continuation with the inputs' as they were and the output's at `projOut x0 w0`. -/
theorem projKernel (c : Dev nD) (E : Set ℕ) (i : grid0.Coords) (arg1 : Memref sig .tc .vmem S512x1024 .f32) (harg1 : arg1.IsWhole)
    (arg2 : Memref sig .tc .vmem S3072x1024 .bf16) (harg2 : arg2.IsWhole) (arg3 : Memref sig .tc .vmem S512x3072 .bf16) (harg3 : arg3.IsWhole)
    (x0 : Vec F S512x1024 .f32) (w0 : Vec F S3072x1024 .bf16) (K : PUnit → sProp 𝕄) :
    iprop(owns (c : Thread nD τ) arg1 fullShare x0 ∗ owns (c : Thread nD τ) arg2 fullShare w0 ∗ (∃ d, owns (c : Thread nD τ) arg3 fullShare d)
        ∗ (iprop(owns (c : Thread nD τ) arg1 fullShare x0 ∗ owns (c : Thread nD τ) arg2 fullShare w0
            ∗ owns (c : Thread nD τ) arg3 fullShare (projOut x0 w0)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The pipeline's proof data on core `c`: the arrays as the region finds them; after the body at point `t` each
    input's buffer at its block and the output's at `projOut` of the two blocks; the invariant the scoped rest and
    the generator register, untouched; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projDat_A (c : Dev nD) (w : Fin cfg0.W) : (projDat V c).A w = V c (Pipeline.arrRef spec0 w) := by
  dsimp only [projDat]

theorem projAfter_0 (c : Dev nD) (t : Fin cfg0.N) : (projDat V c).after 0 t = projBlk V c 0 t := by dsimp only [projDat]
theorem projAfter_1 (c : Dev nD) (t : Fin cfg0.N) : (projDat V c).after 1 t = projBlk V c 1 t := by dsimp only [projDat]
theorem projAfter_2 (c : Dev nD) (t : Fin cfg0.N) : (projDat V c).after 2 t = projOut (projBlk V c 0 t) (projBlk V c 1 t) := by dsimp only [projDat]

theorem projBefore_0 (c : Dev nD) (t : Fin cfg0.N) (d) : (projDat V c).before 0 t d = projBlk V c 0 t :=
  projBefore_0_of V (projDat V c) (projDat_A V c 0) (projAfter_0 V c) t d
theorem projBefore_1 (c : Dev nD) (t : Fin cfg0.N) (d) : (projDat V c).before 1 t d = projBlk V c 1 t :=
  projBefore_1_of V (projDat V c) (projDat_A V c 1) (projAfter_1 V c) t d

/-- What the body is called with at point `t`, the windows one by one, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

/-- The body at any point: the inputs' buffers hold their blocks, so the body's triple applies; the invariant and the
    core's dues pass through unread. -/
theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore_0, projBefore_1]
  rw [show (projDat V c).Φ t.succ = (projDat V c).Φ t.castSucc from rfl,
    show (projDat V c).owesAt () t.succ = (projDat V c).owesAt () t.castSucc from rfl,
    projAfter_0, projAfter_1, projAfter_2]
  iintro ⟨HΦ, Ho, ⟨%d0, H0⟩, ⟨%d1, H1⟩, ⟨%d2, H2⟩⟩
  iapply (projKernel c Set.univ _ _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation of the body, at every point. -/
theorem projObligation (c : Dev nD) : BodyObligation (projDat (F := F) V c) (defs₀ (F := F)) Variants.none () Set.univ := fun t => by
  rw [bigSep_W0, bigSep_W0]
  exact projBody V c t

end Cert.Kernel.Regions

end
-- ==== Proof.KernelAttn.lean ====
/-
  The attention kernel as one region of the program, at ANY float instance: the region is entered with the
  TensorCore's buffers at contents `V`; at grid point `t = (b, s)` (4 × 4 points) the body finds in its first window
  query rows `256·s … 256·s + 255` of batch `b` of the projected array, in its second the batch's 1024 key rows, in
  its third its 1024 value rows — three windows on ONE array, each held at its own share of it —, and leaves in its
  fourth window the block of attention outputs, the body's one stored value of the three blocks it loaded. Stated
  here: each window's block at a point, what the body leaves in the output window, the body's Hoare triple, the
  pipeline's proof data, and the obligation the pipeline rule asks of the body.
-/
import proofs.«180274_j86199993631019_2_alg».proof.Proof.Gen.Kernel.Launch
import proofs.«180274_j86199993631019_2_alg».proof.Proof.Gen.Kernel.Skeleton
import proofs.«180274_j86199993631019_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the last fetch, and the body leaves the block in place. -/
theorem attnBefore_0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

/-- Input window 1's current staging buffer holds its block at every point, fetched there or not: where it is not
    fetched its block index has not moved since the last fetch, and the body leaves the block in place. -/
theorem attnBefore_1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

/-- Input window 2's current staging buffer holds its block at every point, fetched there or not: where it is not
    fetched its block index has not moved since the last fetch, and the body leaves the block in place. -/
theorem attnBefore_2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-- The whole query / output block and the whole key / value block: the rectangles the body loads and stores through. -/
abbrev attnRectQ : Rect S1x256x3072 := Rect.unit (s := S1x256x3072) ![0, 0, 0] S1x256x3072.size inb_S1x256x3072_S1x256x3072_0_0_0
abbrev attnRectK : Rect S1x1024x3072 := Rect.unit (s := S1x1024x3072) ![0, 0, 0] S1x1024x3072.size inb_S1x1024x3072_S1x1024x3072_0_0_0

/-- What the body leaves in the output window's buffer: its one store, of the attention of the three loaded blocks. -/
def attnOut (q0 : Vec F S1x256x3072 .bf16) (k0 v0 : Vec F S1x1024x3072 .bf16) : Vec F S1x256x3072 .f32 :=
  View.canon [⟨attnRectQ, k1_pay1 (View.ld q0 attnRectQ) (View.ld k0 attnRectK) (View.ld v0 attnRectK)⟩]

/-- The store covers the buffer. -/
theorem attnCover (p0 : Vec F S1x256x3072 .f32) (y : S1x256x3072.Idx) :
    ∃ pc ∈ ([⟨attnRectQ, p0⟩] : List (View.Piece (Elt F) S1x256x3072 .f32)), y ∈ pc.1.set :=
  View.cover_of_tiled [⟨attnRectQ, p0⟩] S1x256x3072.size (by rfl) y

set_option maxHeartbeats 1000000 in
/-- The body on whole staging buffers — the inputs' at contents `q0`, `k0`, `v0`, the output's at anything — runs to
    its continuation with the inputs' as they were and the output's at `attnOut q0 k0 v0`. -/
theorem attnKernel (c : Dev nD) (E : Set ℕ) (i : grid1.Coords) (arg2 : Memref sig .tc .vmem S1x256x3072 .bf16) (harg2 : arg2.IsWhole)
    (arg3 : Memref sig .tc .vmem S1x1024x3072 .bf16) (harg3 : arg3.IsWhole) (arg4 : Memref sig .tc .vmem S1x1024x3072 .bf16) (harg4 : arg4.IsWhole)
    (arg5 : Memref sig .tc .vmem S1x256x3072 .f32) (harg5 : arg5.IsWhole)
    (q0 : Vec F S1x256x3072 .bf16) (k0 v0 : Vec F S1x1024x3072 .bf16) (K : PUnit → sProp 𝕄) :
    iprop(owns (c : Thread nD τ) arg2 fullShare q0 ∗ owns (c : Thread nD τ) arg3 fullShare k0 ∗ owns (c : Thread nD τ) arg4 fullShare v0
        ∗ (∃ d, owns (c : Thread nD τ) arg5 fullShare d)
        ∗ (iprop(owns (c : Thread nD τ) arg2 fullShare q0 ∗ owns (c : Thread nD τ) arg3 fullShare k0 ∗ owns (c : Thread nD τ) arg4 fullShare v0
            ∗ owns (c : Thread nD τ) arg5 fullShare (attnOut q0 k0 v0)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attnCover _)

/-- The three shares the projected array is held at, one per input window: two quarters and a half of the whole. -/
abbrev shareQ : PosShare TreeShare := fullShare.left.left
abbrev shareK : PosShare TreeShare := fullShare.left.right
abbrev shareV : PosShare TreeShare := fullShare.right

/-- The pipeline's proof data on core `c`: the arrays as the region finds them; after the body at point `t` each
    input's buffer at its block and the output's at `attnOut` of the three blocks; the invariant the scoped rest
    and the generator register, untouched; nothing owed; the projected array shared among the three input windows. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnOut (attnBlk V c 0 t) (attnBlk V c 1 t) (attnBlk V c 2 t)
  Φ _ := Pipeline.ΦA spec1 c
  q w := match w with
    | ⟨0, _⟩ => shareQ
    | ⟨1, _⟩ => shareK
    | ⟨2, _⟩ => shareV
    | ⟨3, _⟩ => fullShare
  owed _ := 0

theorem attnDat_A (c : Dev nD) (w : Fin cfg1.W) : (attnDat V c).A w = V c (Pipeline.arrRef spec1 w) := by
  dsimp only [attnDat]

theorem attnAfter_0 (c : Dev nD) (t : Fin cfg1.N) : (attnDat V c).after 0 t = attnBlk V c 0 t := by dsimp only [attnDat]
theorem attnAfter_1 (c : Dev nD) (t : Fin cfg1.N) : (attnDat V c).after 1 t = attnBlk V c 1 t := by dsimp only [attnDat]
theorem attnAfter_2 (c : Dev nD) (t : Fin cfg1.N) : (attnDat V c).after 2 t = attnBlk V c 2 t := by dsimp only [attnDat]
theorem attnAfter_3 (c : Dev nD) (t : Fin cfg1.N) :
    (attnDat V c).after 3 t = attnOut (attnBlk V c 0 t) (attnBlk V c 1 t) (attnBlk V c 2 t) := by dsimp only [attnDat]

theorem attnBefore_0 (c : Dev nD) (t : Fin cfg1.N) (d) : (attnDat V c).before 0 t d = attnBlk V c 0 t :=
  attnBefore_0_of V (attnDat V c) (attnDat_A V c 0) (attnAfter_0 V c) t d
theorem attnBefore_1 (c : Dev nD) (t : Fin cfg1.N) (d) : (attnDat V c).before 1 t d = attnBlk V c 1 t :=
  attnBefore_1_of V (attnDat V c) (attnDat_A V c 1) (attnAfter_1 V c) t d
theorem attnBefore_2 (c : Dev nD) (t : Fin cfg1.N) (d) : (attnDat V c).before 2 t d = attnBlk V c 2 t :=
  attnBefore_2_of V (attnDat V c) (attnDat_A V c 2) (attnAfter_2 V c) t d

/-- What the body is called with at point `t`, the windows one by one, -/
def attnPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d))
    ∗ (∃ d, owns (c : Thread nD τ) (st1_3 t) fullShare ((attnDat V c).before 3 t d)))

/-- and what it returns. -/
def attnPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t)
    ∗ owns (c : Thread nD τ) (st1_3 t) fullShare ((attnDat V c).after 3 t))

/-- The body at any point: the inputs' buffers hold their blocks, so the body's triple applies; the invariant and the
    core's dues pass through unread. -/
theorem attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore_0, attnBefore_1, attnBefore_2]
  rw [show (attnDat V c).Φ t.succ = (attnDat V c).Φ t.castSucc from rfl,
    show (attnDat V c).owesAt () t.succ = (attnDat V c).owesAt () t.castSucc from rfl,
    attnAfter_0, attnAfter_1, attnAfter_2, attnAfter_3]
  iintro ⟨HΦ, Ho, ⟨%d0, H0⟩, ⟨%d1, H1⟩, ⟨%d2, H2⟩, ⟨%d3, H3⟩⟩
  iapply (attnKernel c Set.univ _ _ _ _ _ _ _ _ _ (attnBlk V c 0 t) (attnBlk V c 1 t) (attnBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation of the body, at every point. -/
theorem attnObligation (c : Dev nD) : BodyObligation (attnDat (F := F) V c) (defs₀ (F := F)) Variants.none () Set.univ := fun t => by
  rw [bigSep_W1, bigSep_W1]
  exact attnBody V c t

end Cert.Kernel.Regions

end
-- ==== Proof.KernelShares.lean ====
/-
  The attention region's three input windows read ONE array, the projected array. The pipeline rule holds each
  window's array at that window's share, so at the region's entry the array's full share is cut in three
  (a quarter, a quarter, a half) and at its exit the three are put together again. Both directions, for the core's
  unscoped buffers as a whole: entering, they are the four windows' arrays at their entry contents beside the buffers
  no window names; leaving, those and the arrays at their final contents — the three input windows' unchanged, the
  output's at what the write-backs left — are the unscoped buffers at the updated contents.
-/
import proofs.«180274_j86199993631019_2_alg».proof.Proof.KernelAttn

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two distinct buffers behind the four windows. -/
theorem attnArrRefs : Finset.univ.image (Pipeline.arrRef spec1) = ({main_v3, main_v4} : Finset (Ref sig .tc)) := by decide

/-- The buffers behind the windows, one by one. -/
theorem attnArrBufs_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v3) ↦{fullShare} Vc main_v3) ∗ (((c : Thread nD τ).loc main_v4) ↦{fullShare} Vc main_v4)) := by
  unfold Pipeline.arrBufs
  rw [attnArrRefs, bigSep_insert (by decide), bigSep_singleton]
  rfl

/-- The four windows' arrays at contents `A` (the three inputs') and `G` (the output's) are the projected array whole
    at `A` and the result array whole at `G`: the input windows' three shares make the full share. -/
theorem attnArrays_iff (c : Dev nD) (A : Buf (Elt F) ((c : Thread nD τ).loc main_v3)) (G : Buf (Elt F) ((c : Thread nD τ).loc main_v4))
    (Fw : (w : Fin cfg1.W) → Buf (Elt F) ((cfg1.win w).arr.view.loc (c.tc : Thread nD τ)))
    (h0 : Fw 0 = A) (h1 : Fw 1 = A) (h2 : Fw 2 = A) (h3 : Fw 3 = G) :
    (attnDat V c).arrays Fw ⊣⊢ iprop((((c : Thread nD τ).loc main_v3) ↦{fullShare} A) ∗ (((c : Thread nD τ).loc main_v4) ↦{fullShare} G)) := by
  unfold Dat.arrays
  rw [bigSep_W1]
  have e0 : (View.loc c.tc (cfg1.win 0).arr.view ↦[(cfg1.win 0).arr.view.set]{(attnDat V c).share 0} Fw 0 : sProp 𝕄)
      = (((c : Thread nD τ).loc main_v3) ↦{shareQ} A) := by rw [(arr_whole1 0).set_eq_univ, h0]; rfl
  have e1 : (View.loc c.tc (cfg1.win 1).arr.view ↦[(cfg1.win 1).arr.view.set]{(attnDat V c).share 1} Fw 1 : sProp 𝕄)
      = (((c : Thread nD τ).loc main_v3) ↦{shareK} A) := by rw [(arr_whole1 1).set_eq_univ, h1]; rfl
  have e2 : (View.loc c.tc (cfg1.win 2).arr.view ↦[(cfg1.win 2).arr.view.set]{(attnDat V c).share 2} Fw 2 : sProp 𝕄)
      = (((c : Thread nD τ).loc main_v3) ↦{shareV} A) := by rw [(arr_whole1 2).set_eq_univ, h2]; rfl
  have e3 : (View.loc c.tc (cfg1.win 3).arr.view ↦[(cfg1.win 3).arr.view.set]{(attnDat V c).share 3} Fw 3 : sProp 𝕄)
      = (((c : Thread nD τ).loc main_v4) ↦{fullShare} G) := by rw [(arr_whole1 3).set_eq_univ, h3]; rfl
  rw [e0, e1, e2, e3]
  have join1 : iprop((((c : Thread nD τ).loc main_v3) ↦{fullShare.left} A) ∗ (((c : Thread nD τ).loc main_v3) ↦{fullShare.right} A))
      ⊢ ((((c : Thread nD τ).loc main_v3) ↦{fullShare} A) : sProp 𝕄) := (pointsTo_share (PosShare.mem_left_op_right fullShare)).2
  have join2 : iprop((((c : Thread nD τ).loc main_v3) ↦{shareQ} A) ∗ (((c : Thread nD τ).loc main_v3) ↦{shareK} A))
      ⊢ ((((c : Thread nD τ).loc main_v3) ↦{fullShare.left} A) : sProp 𝕄) := (pointsTo_share (PosShare.mem_left_op_right fullShare.left)).2
  have cut1 : ((((c : Thread nD τ).loc main_v3) ↦{fullShare} A) : sProp 𝕄)
      ⊢ iprop((((c : Thread nD τ).loc main_v3) ↦{fullShare.left} A) ∗ (((c : Thread nD τ).loc main_v3) ↦{fullShare.right} A)) :=
    (pointsTo_share (PosShare.mem_left_op_right fullShare)).1
  have cut2 : ((((c : Thread nD τ).loc main_v3) ↦{fullShare.left} A) : sProp 𝕄)
      ⊢ iprop((((c : Thread nD τ).loc main_v3) ↦{shareQ} A) ∗ (((c : Thread nD τ).loc main_v3) ↦{shareK} A)) :=
    (pointsTo_share (PosShare.mem_left_op_right fullShare.left)).1
  refine ⟨?_, ?_⟩
  · iintro ⟨Hq, Hk, Hv, Hg⟩
    isplitr [Hg]
    · ihave Hl := join2 $$ [Hq Hk]
      · isplitl [Hq] <;> iassumption
      iapply join1
      isplitl [Hl] <;> iassumption
    · iexact Hg
  · iintro ⟨Ha, Hg⟩
    ihave Hs := cut1 $$ Ha
    icases Hs with ⟨Hl, Hv⟩
    ihave Hs' := cut2 $$ Hl
    icases Hs' with ⟨Hq, Hk⟩
    isplitl [Hq]; · iexact Hq
    isplitl [Hk]; · iexact Hk
    isplitl [Hv]; · iexact Hv
    iexact Hg

/-- ENTRY: the core's unscoped buffers at contents `V c` are the four windows' arrays at their entry contents, the
    projected array's full share cut among its three readers, beside the buffers no window names. -/
theorem attnEntry (c : Dev nD) :
    (unscopedBufs c (V c) : sProp 𝕄) ⊢ iprop((attnDat V c).arrays ((attnDat V c).arrAt · 0) ∗ Pipeline.unscopedRest spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [attnArrBufs_eq]
  exact sep_mono ((attnArrays_iff V c (V c main_v3) (V c main_v4) _ rfl rfl rfl rfl).2) .rfl

/-- EXIT: the windows' arrays at their final contents — the three readers' unchanged, the result array at what the
    write-backs left — beside the buffers no window names are the core's unscoped buffers at any contents `V'` that
    hold the result array so and agree with `V c` elsewhere. -/
theorem attnExit (c : Dev nD) (V' : (b : Ref sig .tc) → Buf (Elt F) ((c : Thread nD τ).loc b))
    (hres : V' main_v4 = (attnDat V c).arrAt 3 cfg1.N) (hrest : ∀ b, b ≠ main_v4 → V' b = V c b) :
    iprop((attnDat V c).arrays ((attnDat V c).arrAt · cfg1.N) ∗ Pipeline.unscopedRest spec1 c (V c)) ⊢ (unscopedBufs c V' : sProp 𝕄) := by
  rw [Pipeline.unscopedBufs_split₀ cfgs 1 winFacts₀1.arr_unscoped c V']
  show _ ⊢ iprop(Pipeline.arrBufs spec1 c V' ∗ Pipeline.unscopedRest spec1 c V')
  rw [attnArrBufs_eq]
  have hin : ∀ w : Fin cfg1.W, (cfg1.win w).isOut = false → (attnDat V c).arrAt w cfg1.N = (attnDat V c).A w :=
    fun w hw => (attnDat V c).arrAt_in w hw _
  refine sep_mono ((attnArrays_iff V c (V' main_v3) (V' main_v4) _
    ((hin 0 rfl).trans ((attnDat_A V c 0).trans (hrest main_v3 (by decide)).symm))
    ((hin 1 rfl).trans ((attnDat_A V c 1).trans (hrest main_v3 (by decide)).symm))
    ((hin 2 rfl).trans ((attnDat_A V c 2).trans (hrest main_v3 (by decide)).symm))
    hres.symm).1) (Entails.of_eq ?_)
  unfold Pipeline.unscopedRest
  exact bigSep_congr fun b hb => by
    rw [hrest b fun e => (Finset.mem_sdiff.mp hb).2 (Finset.mem_image.mpr ⟨3, Finset.mem_univ _, e.symm⟩)]

end Cert.Kernel.Regions

end
-- ==== Proof.KernelRun.lean ====
/-
  The program's run at ANY float instance: @main is a stretch of host operations (the input flattened to
  `[12288, 1024]`, the weight's format changed), the projection region, one more host operation (the projected array
  regrouped as `[4, 3072, 3072]`), and the attention region. The buffers' contents are followed through the four items:
  a host stretch leaves its operations' results, the projection region leaves in its output array what its 24
  write-backs leave, the attention region leaves in the result array what its 16 write-backs leave; the two argument
  arrays are never written. The attention region's three input windows read ONE array: its full share is cut in three
  at the region's entry and put together again at its exit. Concluded: every weakly fair execution terminates, nothing
  faulting, with the result array at `attnResult` and both arguments as launched.
-/
import proofs.«180274_j86199993631019_2_alg».proof.Proof.KernelProj
import proofs.«180274_j86199993631019_2_alg».proof.Proof.KernelShares

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (projDat (V1 m) c).arrAt w cfg0.N
theorem W2_arr (c : Dev nD) (w : Fin cfg0.W) :
    W2 m c (Proc.devRef .tc (Pipeline.arrRef spec0 w)) = (projDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem projExit_arr (c : Dev nD) (w : Fin cfg0.W) : (projDat (V1 m) c).arrAt w cfg0.N = V2 m c (Pipeline.arrRef spec0 w) :=
  (W2_arr m c w).symm
theorem projExit_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- What the attention region's 16 write-backs leave in the result array. -/
def attnResult (c : Dev nD) : Buf (Elt F) ((c : Thread nD τ).loc main_v4) := (attnDat (V3 m) c).arrAt 3 cfg1.N
/-- At the attention region's exit: the result array at `attnResult`, every other buffer as entered. -/
abbrev W4 (c : Dev nD) : Valuation τ sig (Elt F) := Function.update (W3 m c) main_v4 (attnResult m c)
abbrev V4 : (c : Dev nD) → (b : Ref sig .tc) → Buf (Elt F) ((c : Thread nD τ).loc b) := fun c b => W4 m c b

theorem W4_of_ne (c : Dev nD) (r : Ref sig .tc) (h : r ≠ main_v4) : W4 m c r = W3 m c r := by
  simp only [W4, Function.update_of_ne (StableHlo.devRef_ne_of_ne h : (Proc.devRef .tc r : DevRef τ sig) ≠ Proc.devRef .tc main_v4)]
theorem W4_result (c : Dev nD) : W4 m c main_v4 = attnResult m c := by
  simp only [W4, Function.update_self]

/-- No operation of the host stretches allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A buffer no operation of a host stretch writes is left as it was. -/
theorem W1_of (c : Dev nD) (r : Ref sig .tc) (h : r ≠ main_v0 ∧ r ≠ main_v1) : W1 m c r = W0 m c r :=
  StableHlo.after_of_forall_not_mem (b := Proc.devRef .tc r) _ _ (List.forall_iff_forall_mem.mp (by
    simp only [hostOps0, List.Forall, StableHlo.unary_writes, StableHlo.reshape_writes, Finset.mem_singleton]
    exact ⟨StableHlo.devRef_ne_of_ne h.1, StableHlo.devRef_ne_of_ne h.2⟩))
theorem W3_of (c : Dev nD) (r : Ref sig .tc) (h : r ≠ main_v3) : W3 m c r = W2 m c r :=
  StableHlo.after_of_forall_not_mem (b := Proc.devRef .tc r) _ _ (List.forall_iff_forall_mem.mp (by
    simp only [hostOps1, List.Forall, StableHlo.unary_writes, StableHlo.reshape_writes, Finset.mem_singleton]
    exact StableHlo.devRef_ne_of_ne h))

/-- The arguments end as launched: no host operation writes one, the regions read them or bypass them. -/
theorem W4_main_arg0 (c : Dev nD) : W4 m c main_arg0 = m ((c : Thread nD τ).loc main_arg0) :=
  (W4_of_ne m c main_arg0 (by decide)).trans <| (W3_of m c main_arg0 (by decide)).trans <|
    (W2_of_ne m c main_arg0 (by decide)).trans <| (W1_of m c main_arg0 (by decide)).trans rfl
theorem W4_main_arg1 (c : Dev nD) : W4 m c main_arg1 = m ((c : Thread nD τ).loc main_arg1) :=
  (W4_of_ne m c main_arg1 (by decide)).trans <| (W3_of m c main_arg1 (by decide)).trans <|
    (W2_of_ne m c main_arg1 (by decide)).trans <| (W1_of m c main_arg1 (by decide)).trans rfl

/-! ## The proof data family and the thread state -/

/-- No pipeline reads a prefetched table. -/
abbrev noTables : (p : Fin 2) → (pcfgs (F := F) p).Adm := fun p => (cfgs p).toPCfg_adm
/-- Both pipelines' proof data, each at its region's entry contents. -/
def regionDats : (p : Fin 2) → (c : Dev nD) → Dat τ (Elt F) Unit ℕ (UR sig nD τ) ℕ (Pipeline.pin (pcfgs (F := F)) noTables p) c
  | ⟨0, _⟩ => fun c => projDat (V1 m) c
  | ⟨1, _⟩ => fun c => attnDat (V3 m) c
abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every item: the core's generator register at some state and its dues, none. -/
abbrev riding (c : Dev nD) : sProp 𝕄 := iprop((∃ r, prngReg c r) ∗ ∃ W, owes (c : Thread nD τ) (0 : CellTallies nD τ sig Unit) W)
/-- A host stretch as a segment over every unscoped buffer, from the contents `W`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at some state. -/
abbrev lastState (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region: entered from every unscoped buffer at `W1`, left at `W2`. Its arrays are split out of the
    unscoped buffers and put back at the exit contents; the generator register goes into the invariant and comes
    back; nothing is owed; the kernel has no semaphore of its own. -/
def projSeg : Pipeline.RegionSeg (pcfgs (F := F)) noTables (regionDats m) () defs₀ noVariants noLevels levelZero 0 where
  win := launch0.win.to₀
  block_pos := launch0.block_pos
  stage_whole := launch0.stage_whole
  K := PEmpty
  osem k := k.elim
  ho := Pipeline.OwnSemFacts.none _
  hbody c := (projObligation (V1 m) c).loose
  hwaits := Pipeline.hwaits_of_owed_zero _ _ _ _ noLevels levelZero 0 fun _ _ => rfl
  pre c := iprop(StableHlo.held (c : Thread nD τ) (Pipeline.ucRefs τ sig) (W1 m c) ∗ riding c)
  post c := iprop(StableHlo.held (c : Thread nD τ) (Pipeline.ucRefs τ sig) (W2 m c) ∗ riding c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) noTables (regionDats m) launch0.win launch0.arr_whole c
      ((regionDats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionDats m) ((regionDats m 0 c).share_full fun _ => rfl)
      (V1 m c) (V2 m c) ((regionDats m 0 c).arrAt · cfg0.N) (projExit_arr m c) (projExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. At entry the projected array's
    full share is cut among the three windows that read it; at exit the three shares are put together again and the
    result array is held at what the write-backs left. -/
def attnSeg : Pipeline.RegionSeg (pcfgs (F := F)) noTables (regionDats m) () defs₀ noVariants noLevels levelZero 1 where
  win := winFacts₀1
  block_pos := block_pos1
  stage_whole := stage_whole1
  K := PEmpty
  osem k := k.elim
  ho := Pipeline.OwnSemFacts.none _
  hbody c := (attnObligation (V3 m) c).loose
  hwaits := Pipeline.hwaits_of_owed_zero _ _ _ _ noLevels levelZero 1 fun _ _ => rfl
  pre c := iprop(StableHlo.held (c : Thread nD τ) (Pipeline.ucRefs τ sig) (W3 m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := attnEntry (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (regionDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := attnExit (V3 m) c (V4 m c) (W4_result m c) (fun b hb => W4_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's four items in order. -/
abbrev items : List (Pipeline.Seg (pcfgs (F := F)) noTables (regionDats m) () defs₀ noVariants noLevels levelZero) :=
  [ .host (hostStretch hostOps0 hostOps0_sub hostOps0_fresh (W0 m)),
    .region (projSeg m),
    .host (hostStretch hostOps1 hostOps1_sub hostOps1_fresh (W2 m)),
    .region (attnSeg m) ]
/-- @main IS the run of the items. -/
theorem main_items (c : Dev nD) : main (F := F) c = Pipeline.Seg.run (items m) := (main_chain c).trans (by chain_rfl)

set_option backward.isDefEq.respectTransparency.types false in
/-- THE RUN: from any memory with zero counters, every weakly fair execution of @main terminates, nothing faulting,
    and every final state holds the result array at `attnResult` and both argument arrays as launched. -/
theorem run_main : θ_run defs (onTc (τ := τ) (main (F := F))) ⟨m, fun _ => 0, ρ⟩ (fun r => ∀ c : Dev nD,
      r.2.mem ((c.tc : Thread nD τ).loc main_v4) = attnResult m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) noTables (regionDats m) () cellOf_inj emb₁ defs₀ noVariants noLevels levelZero m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ riding c)) (Tₙ := lastState m)
    (hch := ⟨fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_unscoped main_v4 (by decide))).trans (W4_result m c),
       (h c _ (mem_unscoped main_arg0 (by decide))).trans (W4_main_arg0 m c),
       (h c _ (mem_unscoped main_arg1 (by decide))).trans (W4_main_arg1 m c)⟩)

end Cert.Kernel.Regions

end
-- ==== Proof.KernelIdealProj.lean ====
/-
  The projection kernel as one region of the program, at ANY float instance: the region is entered with the
  TensorCore's buffers at contents `V`; at grid point `t` (24 points) the body finds rows `512·t … 512·t + 511` of
  the flattened input in its first window, the whole weight in its second (fetched once, kept), and leaves in its
  third window the product block — the body's one stored value of the two blocks it loaded. Stated here: each window's
  block at a point, what the body leaves in the output window, the body's Hoare triple, the pipeline's proof data
  (what every staging buffer holds after every point), and the obligation the pipeline rule asks of the body.
-/
import proofs.«180274_j86199993631019_2_alg».proof.Proof.Gen.KernelIdeal.Launch
import proofs.«180274_j86199993631019_2_alg».proof.Proof.Gen.KernelIdeal.Skeleton
import proofs.«180274_j86199993631019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the last fetch, and the body leaves the block in place. -/
theorem projBefore_0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

/-- Input window 1's current staging buffer holds its block at every point, fetched there or not: where it is not
    fetched its block index has not moved since the last fetch, and the body leaves the block in place. -/
theorem projBefore_1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-- The whole output block, the one rectangle the body stores through. -/
abbrev projRect : Rect S512x3072 := Rect.unit (s := S512x3072) ![0, 0] S512x3072.size inb_S512x3072_S512x3072_0_0
/-- The whole input block and the whole weight, the rectangles the body loads through. -/
abbrev projRectX : Rect S512x1024 := Rect.unit (s := S512x1024) ![0, 0] S512x1024.size inb_S512x1024_S512x1024_0_0
abbrev projRectW : Rect S3072x1024 := Rect.unit (s := S3072x1024) ![0, 0] S3072x1024.size inb_S3072x1024_S3072x1024_0_0

/-- What the body leaves in the output window's buffer: its one store, of the product of the two loaded blocks. -/
def projOut (x0 : Vec F S512x1024 .f32) (w0 : Vec F S3072x1024 .bf16) : Vec F S512x3072 .bf16 :=
  View.canon [⟨projRect, k0_pay1 (View.ld x0 projRectX) (View.ld w0 projRectW)⟩]

/-- The store covers the buffer. -/
theorem projCover (p0 : Vec F S512x3072 .bf16) (y : S512x3072.Idx) :
    ∃ pc ∈ ([⟨projRect, p0⟩] : List (View.Piece (Elt F) S512x3072 .bf16)), y ∈ pc.1.set :=
  View.cover_of_tiled [⟨projRect, p0⟩] S512x3072.size (by rfl) y

set_option maxHeartbeats 1000000 in
/-- The body on whole staging buffers — the inputs' at contents `x0`, `w0`, the output's at anything — runs to its
    continuation with the inputs' as they were and the output's at `projOut x0 w0`. -/
theorem projKernel (c : Dev nD) (E : Set ℕ) (i : grid0.Coords) (arg1 : Memref sig .tc .vmem S512x1024 .f32) (harg1 : arg1.IsWhole)
    (arg2 : Memref sig .tc .vmem S3072x1024 .bf16) (harg2 : arg2.IsWhole) (arg3 : Memref sig .tc .vmem S512x3072 .bf16) (harg3 : arg3.IsWhole)
    (x0 : Vec F S512x1024 .f32) (w0 : Vec F S3072x1024 .bf16) (K : PUnit → sProp 𝕄) :
    iprop(owns (c : Thread nD τ) arg1 fullShare x0 ∗ owns (c : Thread nD τ) arg2 fullShare w0 ∗ (∃ d, owns (c : Thread nD τ) arg3 fullShare d)
        ∗ (iprop(owns (c : Thread nD τ) arg1 fullShare x0 ∗ owns (c : Thread nD τ) arg2 fullShare w0
            ∗ owns (c : Thread nD τ) arg3 fullShare (projOut x0 w0)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The pipeline's proof data on core `c`: the arrays as the region finds them; after the body at point `t` each
    input's buffer at its block and the output's at `projOut` of the two blocks; the invariant the scoped rest and
    the generator register, untouched; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projDat_A (c : Dev nD) (w : Fin cfg0.W) : (projDat V c).A w = V c (Pipeline.arrRef spec0 w) := by
  dsimp only [projDat]

theorem projAfter_0 (c : Dev nD) (t : Fin cfg0.N) : (projDat V c).after 0 t = projBlk V c 0 t := by dsimp only [projDat]
theorem projAfter_1 (c : Dev nD) (t : Fin cfg0.N) : (projDat V c).after 1 t = projBlk V c 1 t := by dsimp only [projDat]
theorem projAfter_2 (c : Dev nD) (t : Fin cfg0.N) : (projDat V c).after 2 t = projOut (projBlk V c 0 t) (projBlk V c 1 t) := by dsimp only [projDat]

theorem projBefore_0 (c : Dev nD) (t : Fin cfg0.N) (d) : (projDat V c).before 0 t d = projBlk V c 0 t :=
  projBefore_0_of V (projDat V c) (projDat_A V c 0) (projAfter_0 V c) t d
theorem projBefore_1 (c : Dev nD) (t : Fin cfg0.N) (d) : (projDat V c).before 1 t d = projBlk V c 1 t :=
  projBefore_1_of V (projDat V c) (projDat_A V c 1) (projAfter_1 V c) t d

/-- What the body is called with at point `t`, the windows one by one, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

/-- The body at any point: the inputs' buffers hold their blocks, so the body's triple applies; the invariant and the
    core's dues pass through unread. -/
theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore_0, projBefore_1]
  rw [show (projDat V c).Φ t.succ = (projDat V c).Φ t.castSucc from rfl,
    show (projDat V c).owesAt () t.succ = (projDat V c).owesAt () t.castSucc from rfl,
    projAfter_0, projAfter_1, projAfter_2]
  iintro ⟨HΦ, Ho, ⟨%d0, H0⟩, ⟨%d1, H1⟩, ⟨%d2, H2⟩⟩
  iapply (projKernel c Set.univ _ _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation of the body, at every point. -/
theorem projObligation (c : Dev nD) : BodyObligation (projDat (F := F) V c) (defs₀ (F := F)) Variants.none () Set.univ := fun t => by
  rw [bigSep_W0, bigSep_W0]
  exact projBody V c t

end Cert.KernelIdeal.Regions

end
-- ==== Proof.KernelIdealAttn.lean ====
/-
  The attention kernel as one region of the program, at ANY float instance: the region is entered with the
  TensorCore's buffers at contents `V`; at grid point `t = (b, s)` (4 × 4 points) the body finds in its first window
  query rows `256·s … 256·s + 255` of batch `b` of the projected array, in its second the batch's 1024 key rows, in
  its third its 1024 value rows — three windows on ONE array, each held at its own share of it —, and leaves in its
  fourth window the block of attention outputs, the body's one stored value of the three blocks it loaded. Stated
  here: each window's block at a point, what the body leaves in the output window, the body's Hoare triple, the
  pipeline's proof data, and the obligation the pipeline rule asks of the body.
-/
import proofs.«180274_j86199993631019_2_alg».proof.Proof.Gen.KernelIdeal.Launch
import proofs.«180274_j86199993631019_2_alg».proof.Proof.Gen.KernelIdeal.Skeleton
import proofs.«180274_j86199993631019_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the last fetch, and the body leaves the block in place. -/
theorem attnBefore_0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

/-- Input window 1's current staging buffer holds its block at every point, fetched there or not: where it is not
    fetched its block index has not moved since the last fetch, and the body leaves the block in place. -/
theorem attnBefore_1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

/-- Input window 2's current staging buffer holds its block at every point, fetched there or not: where it is not
    fetched its block index has not moved since the last fetch, and the body leaves the block in place. -/
theorem attnBefore_2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-- The whole query / output block and the whole key / value block: the rectangles the body loads and stores through. -/
abbrev attnRectQ : Rect S1x256x3072 := Rect.unit (s := S1x256x3072) ![0, 0, 0] S1x256x3072.size inb_S1x256x3072_S1x256x3072_0_0_0
abbrev attnRectK : Rect S1x1024x3072 := Rect.unit (s := S1x1024x3072) ![0, 0, 0] S1x1024x3072.size inb_S1x1024x3072_S1x1024x3072_0_0_0

/-- What the body leaves in the output window's buffer: its one store, of the attention of the three loaded blocks. -/
def attnOut (q0 : Vec F S1x256x3072 .bf16) (k0 v0 : Vec F S1x1024x3072 .bf16) : Vec F S1x256x3072 .f32 :=
  View.canon [⟨attnRectQ, k1_pay1 (View.ld q0 attnRectQ) (View.ld k0 attnRectK) (View.ld v0 attnRectK)⟩]

/-- The store covers the buffer. -/
theorem attnCover (p0 : Vec F S1x256x3072 .f32) (y : S1x256x3072.Idx) :
    ∃ pc ∈ ([⟨attnRectQ, p0⟩] : List (View.Piece (Elt F) S1x256x3072 .f32)), y ∈ pc.1.set :=
  View.cover_of_tiled [⟨attnRectQ, p0⟩] S1x256x3072.size (by rfl) y

set_option maxHeartbeats 1000000 in
/-- The body on whole staging buffers — the inputs' at contents `q0`, `k0`, `v0`, the output's at anything — runs to
    its continuation with the inputs' as they were and the output's at `attnOut q0 k0 v0`. -/
theorem attnKernel (c : Dev nD) (E : Set ℕ) (i : grid1.Coords) (arg2 : Memref sig .tc .vmem S1x256x3072 .bf16) (harg2 : arg2.IsWhole)
    (arg3 : Memref sig .tc .vmem S1x1024x3072 .bf16) (harg3 : arg3.IsWhole) (arg4 : Memref sig .tc .vmem S1x1024x3072 .bf16) (harg4 : arg4.IsWhole)
    (arg5 : Memref sig .tc .vmem S1x256x3072 .f32) (harg5 : arg5.IsWhole)
    (q0 : Vec F S1x256x3072 .bf16) (k0 v0 : Vec F S1x1024x3072 .bf16) (K : PUnit → sProp 𝕄) :
    iprop(owns (c : Thread nD τ) arg2 fullShare q0 ∗ owns (c : Thread nD τ) arg3 fullShare k0 ∗ owns (c : Thread nD τ) arg4 fullShare v0
        ∗ (∃ d, owns (c : Thread nD τ) arg5 fullShare d)
        ∗ (iprop(owns (c : Thread nD τ) arg2 fullShare q0 ∗ owns (c : Thread nD τ) arg3 fullShare k0 ∗ owns (c : Thread nD τ) arg4 fullShare v0
            ∗ owns (c : Thread nD τ) arg5 fullShare (attnOut q0 k0 v0)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attnCover _)

/-- The three shares the projected array is held at, one per input window: two quarters and a half of the whole. -/
abbrev shareQ : PosShare TreeShare := fullShare.left.left
abbrev shareK : PosShare TreeShare := fullShare.left.right
abbrev shareV : PosShare TreeShare := fullShare.right

/-- The pipeline's proof data on core `c`: the arrays as the region finds them; after the body at point `t` each
    input's buffer at its block and the output's at `attnOut` of the three blocks; the invariant the scoped rest
    and the generator register, untouched; nothing owed; the projected array shared among the three input windows. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnOut (attnBlk V c 0 t) (attnBlk V c 1 t) (attnBlk V c 2 t)
  Φ _ := Pipeline.ΦA spec1 c
  q w := match w with
    | ⟨0, _⟩ => shareQ
    | ⟨1, _⟩ => shareK
    | ⟨2, _⟩ => shareV
    | ⟨3, _⟩ => fullShare
  owed _ := 0

theorem attnDat_A (c : Dev nD) (w : Fin cfg1.W) : (attnDat V c).A w = V c (Pipeline.arrRef spec1 w) := by
  dsimp only [attnDat]

theorem attnAfter_0 (c : Dev nD) (t : Fin cfg1.N) : (attnDat V c).after 0 t = attnBlk V c 0 t := by dsimp only [attnDat]
theorem attnAfter_1 (c : Dev nD) (t : Fin cfg1.N) : (attnDat V c).after 1 t = attnBlk V c 1 t := by dsimp only [attnDat]
theorem attnAfter_2 (c : Dev nD) (t : Fin cfg1.N) : (attnDat V c).after 2 t = attnBlk V c 2 t := by dsimp only [attnDat]
theorem attnAfter_3 (c : Dev nD) (t : Fin cfg1.N) :
    (attnDat V c).after 3 t = attnOut (attnBlk V c 0 t) (attnBlk V c 1 t) (attnBlk V c 2 t) := by dsimp only [attnDat]

theorem attnBefore_0 (c : Dev nD) (t : Fin cfg1.N) (d) : (attnDat V c).before 0 t d = attnBlk V c 0 t :=
  attnBefore_0_of V (attnDat V c) (attnDat_A V c 0) (attnAfter_0 V c) t d
theorem attnBefore_1 (c : Dev nD) (t : Fin cfg1.N) (d) : (attnDat V c).before 1 t d = attnBlk V c 1 t :=
  attnBefore_1_of V (attnDat V c) (attnDat_A V c 1) (attnAfter_1 V c) t d
theorem attnBefore_2 (c : Dev nD) (t : Fin cfg1.N) (d) : (attnDat V c).before 2 t d = attnBlk V c 2 t :=
  attnBefore_2_of V (attnDat V c) (attnDat_A V c 2) (attnAfter_2 V c) t d

/-- What the body is called with at point `t`, the windows one by one, -/
def attnPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d))
    ∗ (∃ d, owns (c : Thread nD τ) (st1_3 t) fullShare ((attnDat V c).before 3 t d)))

/-- and what it returns. -/
def attnPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t)
    ∗ owns (c : Thread nD τ) (st1_3 t) fullShare ((attnDat V c).after 3 t))

/-- The body at any point: the inputs' buffers hold their blocks, so the body's triple applies; the invariant and the
    core's dues pass through unread. -/
theorem attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore_0, attnBefore_1, attnBefore_2]
  rw [show (attnDat V c).Φ t.succ = (attnDat V c).Φ t.castSucc from rfl,
    show (attnDat V c).owesAt () t.succ = (attnDat V c).owesAt () t.castSucc from rfl,
    attnAfter_0, attnAfter_1, attnAfter_2, attnAfter_3]
  iintro ⟨HΦ, Ho, ⟨%d0, H0⟩, ⟨%d1, H1⟩, ⟨%d2, H2⟩, ⟨%d3, H3⟩⟩
  iapply (attnKernel c Set.univ _ _ _ _ _ _ _ _ _ (attnBlk V c 0 t) (attnBlk V c 1 t) (attnBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation of the body, at every point. -/
theorem attnObligation (c : Dev nD) : BodyObligation (attnDat (F := F) V c) (defs₀ (F := F)) Variants.none () Set.univ := fun t => by
  rw [bigSep_W1, bigSep_W1]
  exact attnBody V c t

end Cert.KernelIdeal.Regions

end
-- ==== Proof.KernelIdealShares.lean ====
/-
  The attention region's three input windows read ONE array, the projected array. The pipeline rule holds each
  window's array at that window's share, so at the region's entry the array's full share is cut in three
  (a quarter, a quarter, a half) and at its exit the three are put together again. Both directions, for the core's
  unscoped buffers as a whole: entering, they are the four windows' arrays at their entry contents beside the buffers
  no window names; leaving, those and the arrays at their final contents — the three input windows' unchanged, the
  output's at what the write-backs left — are the unscoped buffers at the updated contents.
-/
import proofs.«180274_j86199993631019_2_alg».proof.Proof.KernelIdealAttn

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two distinct buffers behind the four windows. -/
theorem attnArrRefs : Finset.univ.image (Pipeline.arrRef spec1) = ({main_v3, main_v4} : Finset (Ref sig .tc)) := by decide

/-- The buffers behind the windows, one by one. -/
theorem attnArrBufs_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v3) ↦{fullShare} Vc main_v3) ∗ (((c : Thread nD τ).loc main_v4) ↦{fullShare} Vc main_v4)) := by
  unfold Pipeline.arrBufs
  rw [attnArrRefs, bigSep_insert (by decide), bigSep_singleton]
  rfl

/-- The four windows' arrays at contents `A` (the three inputs') and `G` (the output's) are the projected array whole
    at `A` and the result array whole at `G`: the input windows' three shares make the full share. -/
theorem attnArrays_iff (c : Dev nD) (A : Buf (Elt F) ((c : Thread nD τ).loc main_v3)) (G : Buf (Elt F) ((c : Thread nD τ).loc main_v4))
    (Fw : (w : Fin cfg1.W) → Buf (Elt F) ((cfg1.win w).arr.view.loc (c.tc : Thread nD τ)))
    (h0 : Fw 0 = A) (h1 : Fw 1 = A) (h2 : Fw 2 = A) (h3 : Fw 3 = G) :
    (attnDat V c).arrays Fw ⊣⊢ iprop((((c : Thread nD τ).loc main_v3) ↦{fullShare} A) ∗ (((c : Thread nD τ).loc main_v4) ↦{fullShare} G)) := by
  unfold Dat.arrays
  rw [bigSep_W1]
  have e0 : (View.loc c.tc (cfg1.win 0).arr.view ↦[(cfg1.win 0).arr.view.set]{(attnDat V c).share 0} Fw 0 : sProp 𝕄)
      = (((c : Thread nD τ).loc main_v3) ↦{shareQ} A) := by rw [(arr_whole1 0).set_eq_univ, h0]; rfl
  have e1 : (View.loc c.tc (cfg1.win 1).arr.view ↦[(cfg1.win 1).arr.view.set]{(attnDat V c).share 1} Fw 1 : sProp 𝕄)
      = (((c : Thread nD τ).loc main_v3) ↦{shareK} A) := by rw [(arr_whole1 1).set_eq_univ, h1]; rfl
  have e2 : (View.loc c.tc (cfg1.win 2).arr.view ↦[(cfg1.win 2).arr.view.set]{(attnDat V c).share 2} Fw 2 : sProp 𝕄)
      = (((c : Thread nD τ).loc main_v3) ↦{shareV} A) := by rw [(arr_whole1 2).set_eq_univ, h2]; rfl
  have e3 : (View.loc c.tc (cfg1.win 3).arr.view ↦[(cfg1.win 3).arr.view.set]{(attnDat V c).share 3} Fw 3 : sProp 𝕄)
      = (((c : Thread nD τ).loc main_v4) ↦{fullShare} G) := by rw [(arr_whole1 3).set_eq_univ, h3]; rfl
  rw [e0, e1, e2, e3]
  have join1 : iprop((((c : Thread nD τ).loc main_v3) ↦{fullShare.left} A) ∗ (((c : Thread nD τ).loc main_v3) ↦{fullShare.right} A))
      ⊢ ((((c : Thread nD τ).loc main_v3) ↦{fullShare} A) : sProp 𝕄) := (pointsTo_share (PosShare.mem_left_op_right fullShare)).2
  have join2 : iprop((((c : Thread nD τ).loc main_v3) ↦{shareQ} A) ∗ (((c : Thread nD τ).loc main_v3) ↦{shareK} A))
      ⊢ ((((c : Thread nD τ).loc main_v3) ↦{fullShare.left} A) : sProp 𝕄) := (pointsTo_share (PosShare.mem_left_op_right fullShare.left)).2
  have cut1 : ((((c : Thread nD τ).loc main_v3) ↦{fullShare} A) : sProp 𝕄)
      ⊢ iprop((((c : Thread nD τ).loc main_v3) ↦{fullShare.left} A) ∗ (((c : Thread nD τ).loc main_v3) ↦{fullShare.right} A)) :=
    (pointsTo_share (PosShare.mem_left_op_right fullShare)).1
  have cut2 : ((((c : Thread nD τ).loc main_v3) ↦{fullShare.left} A) : sProp 𝕄)
      ⊢ iprop((((c : Thread nD τ).loc main_v3) ↦{shareQ} A) ∗ (((c : Thread nD τ).loc main_v3) ↦{shareK} A)) :=
    (pointsTo_share (PosShare.mem_left_op_right fullShare.left)).1
  refine ⟨?_, ?_⟩
  · iintro ⟨Hq, Hk, Hv, Hg⟩
    isplitr [Hg]
    · ihave Hl := join2 $$ [Hq Hk]
      · isplitl [Hq] <;> iassumption
      iapply join1
      isplitl [Hl] <;> iassumption
    · iexact Hg
  · iintro ⟨Ha, Hg⟩
    ihave Hs := cut1 $$ Ha
    icases Hs with ⟨Hl, Hv⟩
    ihave Hs' := cut2 $$ Hl
    icases Hs' with ⟨Hq, Hk⟩
    isplitl [Hq]; · iexact Hq
    isplitl [Hk]; · iexact Hk
    isplitl [Hv]; · iexact Hv
    iexact Hg

/-- ENTRY: the core's unscoped buffers at contents `V c` are the four windows' arrays at their entry contents, the
    projected array's full share cut among its three readers, beside the buffers no window names. -/
theorem attnEntry (c : Dev nD) :
    (unscopedBufs c (V c) : sProp 𝕄) ⊢ iprop((attnDat V c).arrays ((attnDat V c).arrAt · 0) ∗ Pipeline.unscopedRest spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [attnArrBufs_eq]
  exact sep_mono ((attnArrays_iff V c (V c main_v3) (V c main_v4) _ rfl rfl rfl rfl).2) .rfl

/-- EXIT: the windows' arrays at their final contents — the three readers' unchanged, the result array at what the
    write-backs left — beside the buffers no window names are the core's unscoped buffers at any contents `V'` that
    hold the result array so and agree with `V c` elsewhere. -/
theorem attnExit (c : Dev nD) (V' : (b : Ref sig .tc) → Buf (Elt F) ((c : Thread nD τ).loc b))
    (hres : V' main_v4 = (attnDat V c).arrAt 3 cfg1.N) (hrest : ∀ b, b ≠ main_v4 → V' b = V c b) :
    iprop((attnDat V c).arrays ((attnDat V c).arrAt · cfg1.N) ∗ Pipeline.unscopedRest spec1 c (V c)) ⊢ (unscopedBufs c V' : sProp 𝕄) := by
  rw [Pipeline.unscopedBufs_split₀ cfgs 1 winFacts₀1.arr_unscoped c V']
  show _ ⊢ iprop(Pipeline.arrBufs spec1 c V' ∗ Pipeline.unscopedRest spec1 c V')
  rw [attnArrBufs_eq]
  have hin : ∀ w : Fin cfg1.W, (cfg1.win w).isOut = false → (attnDat V c).arrAt w cfg1.N = (attnDat V c).A w :=
    fun w hw => (attnDat V c).arrAt_in w hw _
  refine sep_mono ((attnArrays_iff V c (V' main_v3) (V' main_v4) _
    ((hin 0 rfl).trans ((attnDat_A V c 0).trans (hrest main_v3 (by decide)).symm))
    ((hin 1 rfl).trans ((attnDat_A V c 1).trans (hrest main_v3 (by decide)).symm))
    ((hin 2 rfl).trans ((attnDat_A V c 2).trans (hrest main_v3 (by decide)).symm))
    hres.symm).1) (Entails.of_eq ?_)
  unfold Pipeline.unscopedRest
  exact bigSep_congr fun b hb => by
    rw [hrest b fun e => (Finset.mem_sdiff.mp hb).2 (Finset.mem_image.mpr ⟨3, Finset.mem_univ _, e.symm⟩)]

end Cert.KernelIdeal.Regions

end
-- ==== Proof.KernelIdealRun.lean ====
/-
  The program's run at ANY float instance: @main is a stretch of host operations (the input flattened to
  `[12288, 1024]`, the weight's format changed), the projection region, one more host operation (the projected array
  regrouped as `[4, 3072, 3072]`), and the attention region. The buffers' contents are followed through the four items:
  a host stretch leaves its operations' results, the projection region leaves in its output array what its 24
  write-backs leave, the attention region leaves in the result array what its 16 write-backs leave; the two argument
  arrays are never written. The attention region's three input windows read ONE array: its full share is cut in three
  at the region's entry and put together again at its exit. Concluded: every weakly fair execution terminates, nothing
  faulting, with the result array at `attnResult` and both arguments as launched.
-/
import proofs.«180274_j86199993631019_2_alg».proof.Proof.KernelIdealProj
import proofs.«180274_j86199993631019_2_alg».proof.Proof.KernelIdealShares

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (projDat (V1 m) c).arrAt w cfg0.N
theorem W2_arr (c : Dev nD) (w : Fin cfg0.W) :
    W2 m c (Proc.devRef .tc (Pipeline.arrRef spec0 w)) = (projDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem projExit_arr (c : Dev nD) (w : Fin cfg0.W) : (projDat (V1 m) c).arrAt w cfg0.N = V2 m c (Pipeline.arrRef spec0 w) :=
  (W2_arr m c w).symm
theorem projExit_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- What the attention region's 16 write-backs leave in the result array. -/
def attnResult (c : Dev nD) : Buf (Elt F) ((c : Thread nD τ).loc main_v4) := (attnDat (V3 m) c).arrAt 3 cfg1.N
/-- At the attention region's exit: the result array at `attnResult`, every other buffer as entered. -/
abbrev W4 (c : Dev nD) : Valuation τ sig (Elt F) := Function.update (W3 m c) main_v4 (attnResult m c)
abbrev V4 : (c : Dev nD) → (b : Ref sig .tc) → Buf (Elt F) ((c : Thread nD τ).loc b) := fun c b => W4 m c b

theorem W4_of_ne (c : Dev nD) (r : Ref sig .tc) (h : r ≠ main_v4) : W4 m c r = W3 m c r := by
  simp only [W4, Function.update_of_ne (StableHlo.devRef_ne_of_ne h : (Proc.devRef .tc r : DevRef τ sig) ≠ Proc.devRef .tc main_v4)]
theorem W4_result (c : Dev nD) : W4 m c main_v4 = attnResult m c := by
  simp only [W4, Function.update_self]

/-- No operation of the host stretches allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A buffer no operation of a host stretch writes is left as it was. -/
theorem W1_of (c : Dev nD) (r : Ref sig .tc) (h : r ≠ main_v0 ∧ r ≠ main_v1) : W1 m c r = W0 m c r :=
  StableHlo.after_of_forall_not_mem (b := Proc.devRef .tc r) _ _ (List.forall_iff_forall_mem.mp (by
    simp only [hostOps0, List.Forall, StableHlo.unary_writes, StableHlo.reshape_writes, Finset.mem_singleton]
    exact ⟨StableHlo.devRef_ne_of_ne h.1, StableHlo.devRef_ne_of_ne h.2⟩))
theorem W3_of (c : Dev nD) (r : Ref sig .tc) (h : r ≠ main_v3) : W3 m c r = W2 m c r :=
  StableHlo.after_of_forall_not_mem (b := Proc.devRef .tc r) _ _ (List.forall_iff_forall_mem.mp (by
    simp only [hostOps1, List.Forall, StableHlo.unary_writes, StableHlo.reshape_writes, Finset.mem_singleton]
    exact StableHlo.devRef_ne_of_ne h))

/-- The arguments end as launched: no host operation writes one, the regions read them or bypass them. -/
theorem W4_main_arg0 (c : Dev nD) : W4 m c main_arg0 = m ((c : Thread nD τ).loc main_arg0) :=
  (W4_of_ne m c main_arg0 (by decide)).trans <| (W3_of m c main_arg0 (by decide)).trans <|
    (W2_of_ne m c main_arg0 (by decide)).trans <| (W1_of m c main_arg0 (by decide)).trans rfl
theorem W4_main_arg1 (c : Dev nD) : W4 m c main_arg1 = m ((c : Thread nD τ).loc main_arg1) :=
  (W4_of_ne m c main_arg1 (by decide)).trans <| (W3_of m c main_arg1 (by decide)).trans <|
    (W2_of_ne m c main_arg1 (by decide)).trans <| (W1_of m c main_arg1 (by decide)).trans rfl

/-! ## The proof data family and the thread state -/

/-- No pipeline reads a prefetched table. -/
abbrev noTables : (p : Fin 2) → (pcfgs (F := F) p).Adm := fun p => (cfgs p).toPCfg_adm
/-- Both pipelines' proof data, each at its region's entry contents. -/
def regionDats : (p : Fin 2) → (c : Dev nD) → Dat τ (Elt F) Unit ℕ (UR sig nD τ) ℕ (Pipeline.pin (pcfgs (F := F)) noTables p) c
  | ⟨0, _⟩ => fun c => projDat (V1 m) c
  | ⟨1, _⟩ => fun c => attnDat (V3 m) c
abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every item: the core's generator register at some state and its dues, none. -/
abbrev riding (c : Dev nD) : sProp 𝕄 := iprop((∃ r, prngReg c r) ∗ ∃ W, owes (c : Thread nD τ) (0 : CellTallies nD τ sig Unit) W)
/-- A host stretch as a segment over every unscoped buffer, from the contents `W`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at some state. -/
abbrev lastState (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region: entered from every unscoped buffer at `W1`, left at `W2`. Its arrays are split out of the
    unscoped buffers and put back at the exit contents; the generator register goes into the invariant and comes
    back; nothing is owed; the kernel has no semaphore of its own. -/
def projSeg : Pipeline.RegionSeg (pcfgs (F := F)) noTables (regionDats m) () defs₀ noVariants noLevels levelZero 0 where
  win := launch0.win.to₀
  block_pos := launch0.block_pos
  stage_whole := launch0.stage_whole
  K := PEmpty
  osem k := k.elim
  ho := Pipeline.OwnSemFacts.none _
  hbody c := (projObligation (V1 m) c).loose
  hwaits := Pipeline.hwaits_of_owed_zero _ _ _ _ noLevels levelZero 0 fun _ _ => rfl
  pre c := iprop(StableHlo.held (c : Thread nD τ) (Pipeline.ucRefs τ sig) (W1 m c) ∗ riding c)
  post c := iprop(StableHlo.held (c : Thread nD τ) (Pipeline.ucRefs τ sig) (W2 m c) ∗ riding c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) noTables (regionDats m) launch0.win launch0.arr_whole c
      ((regionDats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionDats m) ((regionDats m 0 c).share_full fun _ => rfl)
      (V1 m c) (V2 m c) ((regionDats m 0 c).arrAt · cfg0.N) (projExit_arr m c) (projExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. At entry the projected array's
    full share is cut among the three windows that read it; at exit the three shares are put together again and the
    result array is held at what the write-backs left. -/
def attnSeg : Pipeline.RegionSeg (pcfgs (F := F)) noTables (regionDats m) () defs₀ noVariants noLevels levelZero 1 where
  win := winFacts₀1
  block_pos := block_pos1
  stage_whole := stage_whole1
  K := PEmpty
  osem k := k.elim
  ho := Pipeline.OwnSemFacts.none _
  hbody c := (attnObligation (V3 m) c).loose
  hwaits := Pipeline.hwaits_of_owed_zero _ _ _ _ noLevels levelZero 1 fun _ _ => rfl
  pre c := iprop(StableHlo.held (c : Thread nD τ) (Pipeline.ucRefs τ sig) (W3 m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := attnEntry (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (regionDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := attnExit (V3 m) c (V4 m c) (W4_result m c) (fun b hb => W4_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's four items in order. -/
abbrev items : List (Pipeline.Seg (pcfgs (F := F)) noTables (regionDats m) () defs₀ noVariants noLevels levelZero) :=
  [ .host (hostStretch hostOps0 hostOps0_sub hostOps0_fresh (W0 m)),
    .region (projSeg m),
    .host (hostStretch hostOps1 hostOps1_sub hostOps1_fresh (W2 m)),
    .region (attnSeg m) ]
/-- @main IS the run of the items. -/
theorem main_items (c : Dev nD) : main (F := F) c = Pipeline.Seg.run (items m) := (main_chain c).trans (by chain_rfl)

set_option backward.isDefEq.respectTransparency.types false in
/-- THE RUN: from any memory with zero counters, every weakly fair execution of @main terminates, nothing faulting,
    and every final state holds the result array at `attnResult` and both argument arrays as launched. -/
theorem run_main : θ_run defs (onTc (τ := τ) (main (F := F))) ⟨m, fun _ => 0, ρ⟩ (fun r => ∀ c : Dev nD,
      r.2.mem ((c.tc : Thread nD τ).loc main_v4) = attnResult m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) noTables (regionDats m) () cellOf_inj emb₁ defs₀ noVariants noLevels levelZero m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ riding c)) (Tₙ := lastState m)
    (hch := ⟨fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_unscoped main_v4 (by decide))).trans (W4_result m c),
       (h c _ (mem_unscoped main_arg0 (by decide))).trans (W4_main_arg0 m c),
       (h c _ (mem_unscoped main_arg1 (by decide))).trans (W4_main_arg1 m c)⟩)

end Cert.KernelIdeal.Regions

end
-- ==== Proof.HostReads.lean ====
/-
  The host operations of the kernel program read at one element.

  Before the first kernel the host regroups the input `[4, 3072, 1024]` as `[12288, 1024]` — row `b · 3072 + n` of the flat
  array is row `n` of batch `b` — and changes the weight's format, which over the extended reals is the identity. After
  it the host regroups the projected rows `[12288, 3072]` as `[4, 3072, 3072]` the same way. A regrouping keeps the
  row-major position of every element.
-/
import proofs.«180274_j86199993631019_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.HostValue

open Idealize.ShloMosaic Idealize.ShloMosaic.ValueIdx Idealize.ShloMosaic.TcCoe Cert.KernelIdeal Cert.KernelIdeal.Gen

/-- After the first host stretch the flat input is the input regrouped. -/
theorem flat_input_eq (W : Valuation τ sig (Elt Ideal)) :
    (StableHlo.after (hostOps0 (F := Ideal)) W main_v0 : S12288x1024.Idx → EReal)
      = shapeCast S12288x1024 (W main_arg0 : S4x3072x1024.Idx → EReal) shapeCasts_S4x3072x1024_S12288x1024 := by
  dsimp only [hostOps0]; after_results; rfl

/-- After the first host stretch the kernel's weight is the weight with its format changed. -/
theorem weight_kept_eq (W : Valuation τ sig (Elt Ideal)) :
    (StableHlo.after (hostOps0 (F := Ideal)) W main_v1 : S3072x1024.Idx → EReal)
      = truncf (F := Ideal) .bf16 (W main_arg1 : S3072x1024.Idx → EReal) bitsLt_bf16_f32 := by
  dsimp only [hostOps0]; after_results

/-- After the second host stretch the batched rows are the projected rows regrouped. -/
theorem regrouped_eq (W : Valuation τ sig (Elt Ideal)) :
    (StableHlo.after (hostOps1 (F := Ideal)) W main_v3 : S4x3072x3072.Idx → EReal)
      = shapeCast S4x3072x3072 (W main_v2 : S12288x3072.Idx → EReal) shapeCasts_S12288x3072_S4x3072x3072 := by
  dsimp only [hostOps1]; after_results; rfl

/-- Row `b · 3072 + n` of the flat input is row `n` of batch `b` of the input. -/
theorem flat_input (W : Valuation τ sig (Elt Ideal)) (b : Fin 4) (n : Fin 3072) (d : Fin 1024) :
    (StableHlo.after (hostOps0 (F := Ideal)) W main_v0 : S12288x1024.Idx → EReal)
        (ix2 (⟨b.val * 3072 + n.val, by omega⟩ : Fin 12288) d)
      = (W main_arg0 : S4x3072x1024.Idx → EReal) (ix3 b n d) := by
  rw [flat_input_eq]
  refine shapeCast_apply (s := S4x3072x1024) (t := S12288x1024) _ _ _ (ix3 b n d) ?_
  rw [Shape.rowMajor_val_three, Shape.rowMajor_val_two]
  rfl

/-- The kernel's weight is the weight. -/
theorem weight_kept (W : Valuation τ sig (Elt Ideal)) (h : Fin 3072) (d : Fin 1024) :
    (StableHlo.after (hostOps0 (F := Ideal)) W main_v1 : S3072x1024.Idx → EReal) (ix2 h d)
      = (W main_arg1 : S3072x1024.Idx → EReal) (ix2 h d) := by
  rw [weight_kept_eq]
  rfl

/-- Row `n` of batch `b` of the batched rows is row `b · 3072 + n` of the projected rows. -/
theorem regrouped (W : Valuation τ sig (Elt Ideal)) (b : Fin 4) (n : Fin 3072) (h : Fin 3072) :
    (StableHlo.after (hostOps1 (F := Ideal)) W main_v3 : S4x3072x3072.Idx → EReal) (ix3 b n h)
      = (W main_v2 : S12288x3072.Idx → EReal) (ix2 (⟨b.val * 3072 + n.val, by omega⟩ : Fin 12288) h) := by
  rw [regrouped_eq]
  refine shapeCast_apply (s := S12288x3072) (t := S4x3072x3072) _ _ _
    (ix2 (⟨b.val * 3072 + n.val, by omega⟩ : Fin 12288) h) ?_
  rw [Shape.rowMajor_val_three, Shape.rowMajor_val_two]
  rfl

end Cert.KernelIdeal.HostValue

end
-- ==== Proof.Spec.lean ====
/-
  The mathematics both programs compute, over the extended reals, as one function of the two argument arrays
  `x : [4, 3072, 1024]` and `w : [3072, 1024]`.

  * `proj x w b n h = ∑ d, x[b, n, d] · w[h, d]`: the projection, every row `n` of every batch `b` against every
    row `h` of the weight.
  * The 3072 projected rows of a batch are cut in three along the ROW axis: rows `0 … 1023` are the queries,
    rows `1024 … 2047` the keys, rows `2048 … 3071` the values (`qRow`, `kRow`, `vRow`).
  * For ONE query row `q` against 1024 key rows `k j` and value rows `v j` (each a vector of 3072 entries):
    `score q k j` is the inner product of `q` with `k j` times the scale `1/32`; `rowMax` the greatest score (a fold
    of `max` from `⊥`); `expo` the exponential of a score less that maximum; `denom` the sum of the exponentials;
    `prob` their quotient; `rowAttn q k v d = ∑ j, prob j · v j d` the softmax-weighted sum of the value rows.
  * `attn x w [b, i, d]` is `rowAttn` of the projected query row `i` of batch `b` against that batch's projected key
    and value rows.
-/
import Idealize.ShloMosaic.PureOps.Ideal
import Idealize.ShloMosaic.Lib.ValueIdx

noncomputable section

open scoped BigOperators

namespace Cert.AttnSpec

open Idealize.ShloMosaic Idealize.ShloMosaic.ValueIdx

/-- The input's shape, the weight's, the result's. -/
abbrev XS : Shape := ⟨3, ![4, 3072, 1024]⟩
abbrev WS : Shape := ⟨2, ![3072, 1024]⟩
abbrev OS : Shape := ⟨3, ![4, 1024, 3072]⟩

/-- Query row `i`, key row `j`, value row `j` among a batch's 3072 projected rows. -/
def qRow (i : Fin 1024) : Fin 3072 := ⟨i.val, by omega⟩
def kRow (j : Fin 1024) : Fin 3072 := ⟨1024 + j.val, by omega⟩
def vRow (j : Fin 1024) : Fin 3072 := ⟨2048 + j.val, by omega⟩

/-- The softmax scale `1 / √1024 = 1/32`. -/
def scale : EReal := ((1 / 32 : ℝ) : EReal)

/-- The projection: row `n` of batch `b` against row `h` of the weight. -/
def proj (x : XS.Idx → EReal) (w : WS.Idx → EReal) (b : Fin 4) (n h : Fin 3072) : EReal :=
  ∑ d : Fin 1024, x (ix3 b n d) * w (ix2 h d)

section Row

variable (q : Fin 3072 → EReal) (k v : Fin 1024 → Fin 3072 → EReal)

/-- The scaled score of the query row against key row `j`. -/
def score (j : Fin 1024) : EReal := (∑ e : Fin 3072, q e * k j e) * scale

/-- The greatest score of the query row. -/
def rowMax : EReal := (Finset.univ : Finset (Fin 1024)).fold max ⊥ (score q k)

/-- The exponential of a score less the row's maximum. -/
def expo (j : Fin 1024) : EReal := Ideal.exp (score q k j - rowMax q k)

/-- The sum of the row's exponentials. -/
def denom : EReal := ∑ j : Fin 1024, expo q k j

/-- The softmax weight of key `j`. -/
def prob (j : Fin 1024) : EReal := Ideal.div (expo q k j) (denom q k)

/-- The softmax-weighted sum of the value rows, at column `d`. -/
def rowAttn (d : Fin 3072) : EReal := ∑ j : Fin 1024, prob q k j * v j d

end Row

/-- The attention output at batch `b`, query row `i`, column `d`. -/
def attnAt (x : XS.Idx → EReal) (w : WS.Idx → EReal) (b : Fin 4) (i : Fin 1024) (d : Fin 3072) : EReal :=
  rowAttn (fun e => proj x w b (qRow i) e) (fun j e => proj x w b (kRow j) e) (fun j e => proj x w b (vRow j) e) d

/-- The whole result array. -/
def attn (x : XS.Idx → EReal) (w : WS.Idx → EReal) : OS.Idx → EReal :=
  fun o => attnAt x w (o 0) (o 1) (o 2)

theorem attn_ix3 (x : XS.Idx → EReal) (w : WS.Idx → EReal) (b : Fin 4) (i : Fin 1024) (d : Fin 3072) :
    attn x w (ix3 b i d) = attnAt x w b i d := rfl

end Cert.AttnSpec

end
-- ==== Proof.ProjBody.lean ====
/-
  The projection kernel's stored block read at one element.

  The body truncates the loaded `[512, 1024]` input rows to bf16, multiplies them by the loaded `[3072, 1024]` weight
  rows contracting axis 1 of both into a zero accumulator, and truncates the result to bf16. Over the extended reals
  the format changes are the identity and the product is exact, so element `(r, h)` of what is stored is
  `∑ d, x[r, d] · w[h, d]`.
-/
import proofs.«180274_j86199993631019_2_alg».proof.Proof.Gen.KernelIdeal.Skeleton
import proofs.«180274_j86199993631019_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen

/-- The dimension numbers of the projection's product: rows of the left operand against rows of the right, both
    contracted along axis 1. -/
abbrev DP : DotDims S512x1024 S3072x1024 S512x3072 := dot_S512x1024_S3072x1024_S512x3072_1_1_0_0_n_n

/-- The left operand's row coordinate is the result's row. -/
theorem DP_lhs_0 (i : S512x3072.Idx) (q : DP.contr.Idx) : (DP.lhsIdx i q 0).val = (i 0).val := by
  unfold DotDims.lhsIdx
  rw [dif_neg (show ¬(0 : Fin S512x1024.rank) ∈ DP.lhsBatch by decide),
    dif_pos (show (0 : Fin S512x1024.rank) ∈ DP.lhsNonContracting by decide)]
  rfl
/-- The left operand's column coordinate is the contraction coordinate. -/
theorem DP_lhs_1 (i : S512x3072.Idx) (q : DP.contr.Idx) : (DP.lhsIdx i q 1).val = (q ⟨0, by decide⟩).val :=
  DP.lhsIdx_val_of_single rfl i q
/-- The right operand's row coordinate is the result's column. -/
theorem DP_rhs_0 (i : S512x3072.Idx) (q : DP.contr.Idx) : (DP.rhsIdx i q 0).val = (i 1).val := by
  unfold DotDims.rhsIdx
  rw [dif_neg (show ¬(0 : Fin S3072x1024.rank) ∈ DP.rhsBatch by decide),
    dif_pos (show (0 : Fin S3072x1024.rank) ∈ DP.rhsNonContracting by decide)]
  rfl
/-- The right operand's column coordinate is the contraction coordinate. -/
theorem DP_rhs_1 (i : S512x3072.Idx) (q : DP.contr.Idx) : (DP.rhsIdx i q 1).val = (q ⟨0, by decide⟩).val :=
  DP.rhsIdx_val_of_single rfl i q

/-- The product into a zero accumulator at `(r, h)`: `∑ d, A[r, d] · B[h, d]`. -/
theorem matmul_DP_apply (A : FVec Ideal S512x1024 .bf16) (B : FVec Ideal S3072x1024 .bf16) (r : Fin 512) (h : Fin 3072) :
    matmul DP none A B (constant (F := Ideal) S512x3072 .f32 0x00000000#32) (ix2 r h)
      = ∑ d : Fin 1024, A (ix2 r d) * B (ix2 h d) := by
  refine (Ideal.matmul_constant_zero_apply DP none A B (ix2 r h)).trans ?_
  rw [← Equiv.sum_comp (contrEquiv1 DP 1024 rfl rfl).symm]
  refine Finset.sum_congr rfl fun k _ => ?_
  have hk := contrEquiv1_symm_val DP 1024 rfl rfl k
  have el : DP.lhsIdx (ix2 r h) ((contrEquiv1 DP 1024 rfl rfl).symm k) = ix2 r k := funext fun a => Fin.ext (by
    match a with
    | ⟨0, _⟩ => exact DP_lhs_0 _ _
    | ⟨1, _⟩ => exact (DP_lhs_1 _ _).trans hk)
  have er : DP.rhsIdx (ix2 r h) ((contrEquiv1 DP 1024 rfl rfl).symm k) = ix2 h k := funext fun a => Fin.ext (by
    match a with
    | ⟨0, _⟩ => exact DP_rhs_0 _ _
    | ⟨1, _⟩ => exact (DP_rhs_1 _ _).trans hk)
  rw [el, er]

/-- THE PROJECTION KERNEL'S STORED VALUE AT `(r, h)`: the inner product of input row `r` with weight row `h`. -/
theorem proj_pay (x0 : Vec Ideal S512x1024 .f32) (w0 : Vec Ideal S3072x1024 .bf16) (r : Fin 512) (h : Fin 3072) :
    k0_pay1 (F := Ideal) x0 w0 (ix2 r h) = ∑ d : Fin 1024, x0 (ix2 r d) * w0 (ix2 h d) := by
  unfold k0_pay1
  rw [shapeCast_self, shapeCast_self]
  refine (truncf_apply (ψ := .bf16) _ bitsLt_bf16_f32 (ix2 r h)).trans ?_
  refine (matmul_DP_apply _ _ r h).trans ?_
  rfl

end Cert.KernelIdeal.BodyValue

end
-- ==== Proof.ProjArray.lean ====
/-
  The projection kernel's result array after its last grid point, as one function of the arrays the region finds.

  The grid has 24 points. At point `t` the input window holds rows `512·t … 512·t + 511` of the flattened input
  `[12288, 1024]`, the weight window holds the whole weight `[3072, 1024]`, and the body leaves in the output window
  the block whose element `(r, h)` is `∑ d, x[r, d] · w[h, d]` of the two blocks it loaded. That block is written back
  to rows `512·t … 512·t + 511` of the product array `[12288, 3072]`. So what point `t` writes back is block `t` of
  ONE whole-array function, `(r, h) ↦ ∑ d, a[r, d] · w[h, d]` of the flattened input `a` and the weight `w`; the
  24 blocks tile the array (the point covering row `r` is `r / 512`); hence the array ends holding that function.
-/
import proofs.«180274_j86199993631019_2_alg».proof.Proof.KernelIdealProj
import proofs.«180274_j86199993631019_2_alg».proof.Proof.ProjBody
import Idealize.ShloMosaic.Lib.Pipeline.Value

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Row `r` of the flattened input against row `h` of the weight. -/
def flatProj (a : S12288x1024.Idx → EReal) (w : S3072x1024.Idx → EReal) (r : Fin 12288) (h : Fin 3072) : EReal :=
  ∑ d : Fin 1024, a (ix2 r d) * w (ix2 h d)

/-- The whole product array. -/
def projArr (a : S12288x1024.Idx → EReal) (w : S3072x1024.Idx → EReal) : S12288x3072.Idx → EReal :=
  fun i => flatProj a w (i 0) (i 1)

/-- The zero offsets of a whole-block rectangle, as the constant function. -/
theorem zeros2 : (![0, 0] : Fin 2 → Nat) = fun _ => 0 := funext fun a => by fin_cases a <;> rfl

/-- The three windows' block indices at point `t`: the input's and the output's are `(t, 0)`, the weight's is `(0, 0)`. -/
theorem proj_index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Element `(r, d)` of the input window's block at point `t` is element `(512·t + r, d)` of the flattened input. -/
theorem projBlk0_apply (c : Dev nD) (t : Fin cfg0.N) (r : Fin 512) (d : Fin 1024) (k : S12288x1024.Idx)
    (hk0 : (k 0).val = 512 * t.val + r.val) (hk1 : (k 1).val = d.val) :
    (projBlk V c 0 t : S512x1024.Idx → EReal) (ix2 r d) = (V c main_v0 : S12288x1024.Idx → EReal) k := by
  obtain ⟨e0, e1, -⟩ := proj_index_facts t
  unfold projBlk
  rw [View.read_apply]
  show (V c main_v0 : S12288x1024.Idx → EReal) _ = V c main_v0 _
  congr 1
  funext a; apply Fin.ext
  match a with
  | ⟨0, _⟩ => show win0_0.index t (0 : Fin 2) * 512 + 1 * r.val = (k 0).val; rw [e0, hk0]; omega
  | ⟨1, _⟩ => show win0_0.index t (1 : Fin 2) * 1024 + 1 * d.val = (k 1).val; rw [e1, hk1]; omega

/-- The weight window's block at every point is the whole weight. -/
theorem projBlk1_apply (c : Dev nD) (t : Fin cfg0.N) (h : Fin 3072) (d : Fin 1024) (k : S3072x1024.Idx)
    (hk0 : (k 0).val = h.val) (hk1 : (k 1).val = d.val) :
    (projBlk V c 1 t : S3072x1024.Idx → EReal) (ix2 h d) = (V c main_v1 : S3072x1024.Idx → EReal) k := by
  obtain ⟨-, -, e0, e1, -⟩ := proj_index_facts t
  unfold projBlk
  rw [View.read_apply]
  show (V c main_v1 : S3072x1024.Idx → EReal) _ = V c main_v1 _
  congr 1
  funext a; apply Fin.ext
  match a with
  | ⟨0, _⟩ => show win0_1.index t (0 : Fin 2) * 3072 + 1 * h.val = (k 0).val; rw [e0, hk0]; omega
  | ⟨1, _⟩ => show win0_1.index t (1 : Fin 2) * 1024 + 1 * d.val = (k 1).val; rw [e1, hk1]; omega

/-- What point `t` writes back is block `t` of the whole product array. -/
theorem projFlushed_eq (c : Dev nD) (t : Fin cfg0.N) :
    (projDat (F := Ideal) V c).flushed 2 t
      = ((cfg0.win 2).blk t).view.read (Elt Ideal) (projArr (V c main_v0) (V c main_v1)) := by
  show (cfg0.win 2).cut (grid0.coords t) ((projDat V c).after 2 t) = _
  rw [projAfter_2]
  unfold projOut
  rw [View.canon_unit_zero zeros2]
  simp only [View.ld_unit_zero (S := S512x1024) zeros2, View.ld_unit_zero (S := S3072x1024) zeros2]
  funext j
  obtain ⟨r, h, rfl⟩ : ∃ (r : Fin 512) (h : Fin 3072), j = ix2 r h := ⟨j 0, j 1, eq_ix2 j⟩
  obtain ⟨-, -, -, -, e0, e1⟩ := proj_index_facts t
  rw [View.read_apply]
  show k0_pay1 (F := Ideal) (projBlk V c 0 t) (projBlk V c 1 t) (ix2 r h) = _
  refine (Cert.KernelIdeal.BodyValue.proj_pay _ _ r h).trans ?_
  unfold projArr flatProj
  refine Finset.sum_congr rfl fun d _ => ?_
  refine congrArg₂ (· * ·) (projBlk0_apply V c t r d _ ?_ rfl) (projBlk1_apply V c t h d _ ?_ rfl)
  · show win0_2.index t (0 : Fin 2) * 512 + 1 * r.val = 512 * t.val + r.val; rw [e0]; omega
  · show win0_2.index t (1 : Fin 2) * 3072 + 1 * h.val = h.val; rw [e1]; omega

/-- An index of the product array is in point `t`'s block iff each coordinate is in the block's range on its axis. -/
theorem proj_mem_blk (t : Fin cfg0.N) (i : S12288x3072.Idx) :
    i ∈ ((cfg0.win 2).blk t).view.set ↔ ∀ a : Fin 2, win0_2.index t a * S512x3072.size a ≤ (i a).val
      ∧ (i a).val < win0_2.index t a * S512x3072.size a + S512x3072.size a := by
  show i ∈ ((View.whole main_v2).slice (win0_2.rect t)).set ↔ _
  rw [View.set_slice_whole, Rect.mem_set_unit]
  exact Iff.rfl

/-- Every index of the product array is in the block of the point its row falls in, `row / 512`. -/
theorem proj_cover (i : S12288x3072.Idx) :
    ∃ t : Fin cfg0.N, (cfg0.win 2).flush t = true ∧ i ∈ ((cfg0.win 2).blk t).view.set := by
  have hi0 : (i 0).val < 12288 := (i 0).isLt
  have hi1 : (i 1).val < 3072 := (i 1).isLt
  obtain ⟨t, ht⟩ : ∃ t : Fin cfg0.N, t.val = (i 0).val / 512 :=
    ⟨⟨(i 0).val / 512, by rw [show cfg0.N = 24 from N_0]; omega⟩, rfl⟩
  obtain ⟨-, -, -, -, e0, e1⟩ := proj_index_facts t
  refine ⟨t, flush0_2 t, ?_⟩
  rw [proj_mem_blk]
  intro a
  match a with
  | ⟨0, _⟩ =>
    show win0_2.index t (0 : Fin 2) * 512 ≤ (i 0).val ∧ (i 0).val < win0_2.index t (0 : Fin 2) * 512 + 512
    rw [e0, ht]; omega
  | ⟨1, _⟩ =>
    show win0_2.index t (1 : Fin 2) * 3072 ≤ (i 1).val ∧ (i 1).val < win0_2.index t (1 : Fin 2) * 3072 + 3072
    rw [e1]; omega

/-- After the last point the product array holds every row of the flattened input against every row of the weight. -/
theorem projFinal_arr (c : Dev nD) :
    (projDat (F := Ideal) V c).arrAt 2 cfg0.N = projArr (V c main_v0) (V c main_v1) :=
  (projDat (F := Ideal) V c).arrAt_eq_of_cover 2 (projArr (V c main_v0) (V c main_v1)) (fun t _ => projFlushed_eq V c t) proj_cover

/-- The product array at `(r, h)` after the last point. -/
theorem projFinal (c : Dev nD) (r : Fin 12288) (h : Fin 3072) :
    (projDat (F := Ideal) V c).arrAt 2 cfg0.N (ix2 r h) = flatProj (V c main_v0) (V c main_v1) r h := by
  rw [projFinal_arr]
  rfl

end Cert.KernelIdeal.Regions

end
-- ==== Proof.AttnDots.lean ====
/-
  The attention kernel's two products read at one element.

  The scores are the query rows against the key rows, both `[·, 3072]`, contracted along axis 1 of both:
  `S[i, j] = ∑ e, Q[i, e] · K[j, e]`. The output is the weights `[256, 1024]` times the value rows `[1024, 3072]`,
  a plain matrix product: `O[i, d] = ∑ j, P[i, j] · V[j, d]`. Both accumulate into a zero splat.
-/
import proofs.«180274_j86199993631019_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen

/-- The dimension numbers of the score product: query rows against key rows, both contracted along axis 1. -/
abbrev DS : DotDims S256x3072 S1024x3072 S256x1024 := dot_S256x3072_S1024x3072_S256x1024_1_1_0_0_n_n

theorem DS_lhs_0 (i : S256x1024.Idx) (q : DS.contr.Idx) : (DS.lhsIdx i q 0).val = (i 0).val := by
  unfold DotDims.lhsIdx
  rw [dif_neg (show ¬(0 : Fin S256x3072.rank) ∈ DS.lhsBatch by decide),
    dif_pos (show (0 : Fin S256x3072.rank) ∈ DS.lhsNonContracting by decide)]
  rfl
theorem DS_lhs_1 (i : S256x1024.Idx) (q : DS.contr.Idx) : (DS.lhsIdx i q 1).val = (q ⟨0, by decide⟩).val :=
  DS.lhsIdx_val_of_single rfl i q
theorem DS_rhs_0 (i : S256x1024.Idx) (q : DS.contr.Idx) : (DS.rhsIdx i q 0).val = (i 1).val := by
  unfold DotDims.rhsIdx
  rw [dif_neg (show ¬(0 : Fin S1024x3072.rank) ∈ DS.rhsBatch by decide),
    dif_pos (show (0 : Fin S1024x3072.rank) ∈ DS.rhsNonContracting by decide)]
  rfl
theorem DS_rhs_1 (i : S256x1024.Idx) (q : DS.contr.Idx) : (DS.rhsIdx i q 1).val = (q ⟨0, by decide⟩).val :=
  DS.rhsIdx_val_of_single rfl i q

/-- The score product into a zero accumulator at `(i, j)`: `∑ e, A[i, e] · B[j, e]`. -/
theorem matmul_DS_apply (A : FVec Ideal S256x3072 .bf16) (B : FVec Ideal S1024x3072 .bf16) (i : Fin 256) (j : Fin 1024) :
    matmul DS none A B (constant (F := Ideal) S256x1024 .f32 0x00000000#32) (ix2 i j)
      = ∑ e : Fin 3072, A (ix2 i e) * B (ix2 j e) := by
  refine (Ideal.matmul_constant_zero_apply DS none A B (ix2 i j)).trans ?_
  rw [← Equiv.sum_comp (contrEquiv1 DS 3072 rfl rfl).symm]
  refine Finset.sum_congr rfl fun k _ => ?_
  have hk := contrEquiv1_symm_val DS 3072 rfl rfl k
  have el : DS.lhsIdx (ix2 i j) ((contrEquiv1 DS 3072 rfl rfl).symm k) = ix2 i k := funext fun a => Fin.ext (by
    match a with
    | ⟨0, _⟩ => exact DS_lhs_0 _ _
    | ⟨1, _⟩ => exact (DS_lhs_1 _ _).trans hk)
  have er : DS.rhsIdx (ix2 i j) ((contrEquiv1 DS 3072 rfl rfl).symm k) = ix2 j k := funext fun a => Fin.ext (by
    match a with
    | ⟨0, _⟩ => exact DS_rhs_0 _ _
    | ⟨1, _⟩ => exact (DS_rhs_1 _ _).trans hk)
  rw [el, er]

/-- The dimension numbers of the output product: a plain matrix product, the weights' columns against the value rows. -/
abbrev DV : DotDims S256x1024 S1024x3072 S256x3072 := dot_S256x1024_S1024x3072_S256x3072_1_0_0_1_n_n

theorem DV_lhs_0 (i : S256x3072.Idx) (q : DV.contr.Idx) : (DV.lhsIdx i q 0).val = (i 0).val := by
  unfold DotDims.lhsIdx
  rw [dif_neg (show ¬(0 : Fin S256x1024.rank) ∈ DV.lhsBatch by decide),
    dif_pos (show (0 : Fin S256x1024.rank) ∈ DV.lhsNonContracting by decide)]
  rfl
theorem DV_lhs_1 (i : S256x3072.Idx) (q : DV.contr.Idx) : (DV.lhsIdx i q 1).val = (q ⟨0, by decide⟩).val :=
  DV.lhsIdx_val_of_single rfl i q
theorem DV_rhs_0 (i : S256x3072.Idx) (q : DV.contr.Idx) : (DV.rhsIdx i q 0).val = (q ⟨0, by decide⟩).val :=
  DV.rhsIdx_val_of_single rfl i q
theorem DV_rhs_1 (i : S256x3072.Idx) (q : DV.contr.Idx) : (DV.rhsIdx i q 1).val = (i 1).val := by
  unfold DotDims.rhsIdx
  rw [dif_neg (show ¬(1 : Fin S1024x3072.rank) ∈ DV.rhsBatch by decide),
    dif_pos (show (1 : Fin S1024x3072.rank) ∈ DV.rhsNonContracting by decide)]
  rfl

/-- The output product into a zero accumulator at `(i, d)`: `∑ j, P[i, j] · V[j, d]`. -/
theorem matmul_DV_apply (P : FVec Ideal S256x1024 .bf16) (V : FVec Ideal S1024x3072 .bf16) (i : Fin 256) (d : Fin 3072) :
    matmul DV none P V (constant (F := Ideal) S256x3072 .f32 0x00000000#32) (ix2 i d)
      = ∑ j : Fin 1024, P (ix2 i j) * V (ix2 j d) := by
  refine (Ideal.matmul_constant_zero_apply DV none P V (ix2 i d)).trans ?_
  rw [← Equiv.sum_comp (contrEquiv1 DV 1024 rfl rfl).symm]
  refine Finset.sum_congr rfl fun k _ => ?_
  have hk := contrEquiv1_symm_val DV 1024 rfl rfl k
  have el : DV.lhsIdx (ix2 i d) ((contrEquiv1 DV 1024 rfl rfl).symm k) = ix2 i k := funext fun a => Fin.ext (by
    match a with
    | ⟨0, _⟩ => exact DV_lhs_0 _ _
    | ⟨1, _⟩ => exact (DV_lhs_1 _ _).trans hk)
  have er : DV.rhsIdx (ix2 i d) ((contrEquiv1 DV 1024 rfl rfl).symm k) = ix2 k d := funext fun a => Fin.ext (by
    match a with
    | ⟨0, _⟩ => exact (DV_rhs_0 _ _).trans hk
    | ⟨1, _⟩ => exact DV_rhs_1 _ _)
  rw [el, er]

end Cert.KernelIdeal.BodyValue

end
-- ==== Proof.AttnLayout.lean ====
/-
  The attention kernel's layout operations, lane reductions and float words read at one element.

  * A `[a]` vector cast to the column `[a, 1]` reads its entry `i` at `(i, 0)`; a column `[a, 1]` broadcast to `[a, b]`
    reads its entry `(i, 0)` at every `(i, j)`.
  * A reduction of a `[256, 1024]` array along axis 1 reads, at row `i`, the sum (for `add`) or the fold of `max` from
    `⊥` (for `maximumf` from the word of `-∞`) of that row's 1024 entries.
  * The word `0x3D000000` denotes `1/32`; the word `0xFF800000` denotes `⊥`.
-/
import proofs.«180274_j86199993631019_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen

variable {α : Type}

/-! ## The keepdims column forms -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane reductions -/

/-- The source index over row `i` with column `j` inserted is `(i, j)`. -/
theorem lift_row (i : Fin 256) (j : Fin 1024) :
    reduces_S256x1024_S256.lift (ix1 i) j = ix2 i j := by
  funext c
  apply Fin.ext
  match c with
  | ⟨0, _⟩ => rfl
  | ⟨1, _⟩ => rfl

/-- The `add` reduction of a `[256, 1024]` array along axis 1, at row `i`: the sum of the row. -/
theorem rowSum_apply (src : FVec Ideal S256x1024 .f32) (hφ : FKind.Formats .f32)
    (hacc : (0x00000000#32 : BitVec 32) = 0x00000000#32) (i : Fin 256) :
    multiReduction .add [1] S256 src 0x00000000#32 reduces_S256x1024_S256 hφ hacc (ix1 i)
      = ∑ j : Fin 1024, src (ix2 i j) := by
  refine (Ideal.multiReduction_add_single src _ reduces_S256x1024_S256 hφ hacc (ix1 i)).trans ?_
  show ∑ j : Fin 1024, src (reduces_S256x1024_S256.lift (ix1 i) j) = _
  exact Finset.sum_congr rfl fun j _ => congrArg src (lift_row i j)

/-- The word `0xFF800000` denotes `⊥`. -/
theorem ofBits_negInf : Ideal.ofBits .f32 0xFF800000#32 = (⊥ : EReal) := by
  simp [Ideal.ofBits, Ideal.ieee]

/-- The word `0x3D000000` denotes `1/32`. -/
theorem ofBits_scale : Ideal.ofBits .f32 0x3D000000#32 = (((1 / 32 : ℝ)) : EReal) := by
  simp [Ideal.ofBits, Ideal.ieee, -EReal.coe_mul]; norm_num

/-- The `maximumf` reduction of a `[256, 1024]` array along axis 1 from the word of `-∞`, at row `i`: the fold of
    `max` from `⊥` over the row. -/
theorem rowMax_apply (src : FVec Ideal S256x1024 .f32) (hφ : FKind.Formats .f32)
    (hacc : (0xFF800000#32 : BitVec 32) = 0xFF800000#32) (i : Fin 256) :
    multiReduction .maximumf [1] S256 src 0xFF800000#32 reduces_S256x1024_S256 hφ hacc (ix1 i)
      = (Finset.univ : Finset (Fin 1024)).fold max (⊥ : EReal) (fun j => src (ix2 i j)) := by
  refine (Ideal.multiReduction_maximumf_single src _ reduces_S256x1024_S256 hφ hacc (ix1 i)).trans ?_
  show (Finset.univ : Finset (Fin 1024)).fold max (Ideal.ofBits .f32 0xFF800000#32)
      (fun j => src (reduces_S256x1024_S256.lift (ix1 i) j)) = _
  rw [ofBits_negInf]
  exact Finset.fold_congr fun j _ => congrArg src (lift_row i j)

/-! ## A row's reduction spread back over the row -/

/-- The row maxima, as a column, broadcast over the columns: at `(i, j)` the fold of `max` from `⊥` over row `i`. -/
theorem maxCol_apply (s : FVec Ideal S256x1024 .f32) (hφ : FKind.Formats .f32)
    (hacc : (0xFF800000#32 : BitVec 32) = 0xFF800000#32) (i : Fin 256) (j : Fin 1024) :
    broadcastTo S256x1024 (shapeCast S256x1 (multiReduction .maximumf [1] S256 s 0xFF800000#32 reduces_S256x1024_S256 hφ hacc)
        shapeCasts_S256_S256x1) broadcasts_S256x1_S256x1024 (ix2 i j)
      = (Finset.univ : Finset (Fin 1024)).fold max (⊥ : EReal) (fun j' => s (ix2 i j')) :=
  (broadcastTo_a1_ab_apply _ _ i j).trans ((shapeCast_a_a1_apply _ _ i (0 : Fin 1)).trans (rowMax_apply s hφ hacc i))

/-- The row sums, as a column, broadcast over the columns: at `(i, j)` the sum of row `i`. -/
theorem sumCol_apply (s : FVec Ideal S256x1024 .f32) (hφ : FKind.Formats .f32)
    (hacc : (0x00000000#32 : BitVec 32) = 0x00000000#32) (i : Fin 256) (j : Fin 1024) :
    broadcastTo S256x1024 (shapeCast S256x1 (multiReduction .add [1] S256 s 0x00000000#32 reduces_S256x1024_S256 hφ hacc)
        shapeCasts_S256_S256x1) broadcasts_S256x1_S256x1024 (ix2 i j)
      = ∑ j' : Fin 1024, s (ix2 i j') :=
  (broadcastTo_a1_ab_apply _ _ i j).trans ((shapeCast_a_a1_apply _ _ i (0 : Fin 1)).trans (rowSum_apply s hφ hacc i))

/-- An exponential at an index is the exponential of the element. -/
theorem exp_apply {s : Shape} {φ : FTy} (a : FVec Ideal s φ) (i : s.Idx) : exp a i = Ideal.exp (a i) := rfl

end Cert.KernelIdeal.BodyValue

end
-- ==== Proof.AttnBody.lean ====
/-
  The attention kernel's stored block read at one element.

  The body drops the unit batch axis of the loaded query rows `[1, 256, 3072]` and key and value rows
  `[1, 1024, 3072]`; takes the scores `S[i, j] = (∑ e, Q[i, e] · K[j, e]) · 1/32`; subtracts each row's maximum (a fold
  of `max` from `⊥`), exponentiates, divides by each row's sum; multiplies the weights by the value rows; and puts the
  unit axis back. Over the extended reals every operation is exact and the format changes are the identity, so
  element `(0, i, d)` of what is stored is the specification's `rowAttn` of query row `i` against the key and value
  rows, at column `d`.
-/
import proofs.«180274_j86199993631019_2_alg».proof.Proof.AttnDots
import proofs.«180274_j86199993631019_2_alg».proof.Proof.AttnLayout
import proofs.«180274_j86199993631019_2_alg».proof.Proof.Spec

noncomputable section

open scoped BigOperators

namespace Cert.KernelIdeal.BodyValue

open Idealize.ShloMosaic Idealize.ShloMosaic.ValueIdx Cert.KernelIdeal Cert.KernelIdeal.Gen

/-! ## The body's stages over the rank-2 operands, as the kernel spells them -/

/-- The scaled scores. -/
abbrev scoresK (Q : FVec Ideal S256x3072 .bf16) (K : FVec Ideal S1024x3072 .bf16) : FVec Ideal S256x1024 .f32 :=
  mulf (matmul DS none Q K (constant (F := Ideal) S256x1024 .f32 0x00000000#32))
    (broadcast S256x1024 (Scalar.ofBits (F := Ideal) .f32 0x3D000000#32))

/-- Each row's maximum, spread back over the row. -/
abbrev maxColK (s : FVec Ideal S256x1024 .f32) : FVec Ideal S256x1024 .f32 :=
  broadcastTo S256x1024 (shapeCast S256x1 (multiReduction .maximumf [1] S256 s 0xFF800000#32 reduces_S256x1024_S256 (.inl rfl) rfl)
    shapeCasts_S256_S256x1) broadcasts_S256x1_S256x1024

/-- Each row's sum, spread back over the row. -/
abbrev sumColK (s : FVec Ideal S256x1024 .f32) : FVec Ideal S256x1024 .f32 :=
  broadcastTo S256x1024 (shapeCast S256x1 (multiReduction .add [1] S256 s 0x00000000#32 reduces_S256x1024_S256 (.inl rfl) rfl)
    shapeCasts_S256_S256x1) broadcasts_S256x1_S256x1024

/-- The exponentials of the scores less their row's maximum. -/
abbrev exposK (Q : FVec Ideal S256x3072 .bf16) (K : FVec Ideal S1024x3072 .bf16) : FVec Ideal S256x1024 .f32 :=
  exp (subf (scoresK Q K) (maxColK (scoresK Q K)))

/-- The softmax weights. -/
abbrev weightsK (Q : FVec Ideal S256x3072 .bf16) (K : FVec Ideal S1024x3072 .bf16) : FVec Ideal S256x1024 .bf16 :=
  truncf .bf16 (divf (exposK Q K) (sumColK (exposK Q K))) bitsLt_bf16_f32

/-- The weighted sum of the value rows. -/
abbrev attnK (Q : FVec Ideal S256x3072 .bf16) (K V : FVec Ideal S1024x3072 .bf16) : FVec Ideal S256x3072 .f32 :=
  matmul DV none (weightsK Q K) V (constant (F := Ideal) S256x3072 .f32 0x00000000#32)

section Stages

variable (Q : FVec Ideal S256x3072 .bf16) (K V : FVec Ideal S1024x3072 .bf16)

/-- The scaled score at `(i, j)` is the specification's score of row `i` against key row `j`. -/
theorem scoresK_apply (i : Fin 256) (j : Fin 1024) :
    scoresK Q K (ix2 i j) = AttnSpec.score (fun e => Q (ix2 i e)) (fun j e => K (ix2 j e)) j := by
  refine (mulf_apply _ _ _).trans ?_
  unfold AttnSpec.score AttnSpec.scale
  refine congrArg₂ (· * ·) (matmul_DS_apply Q K i j) ?_
  exact ofBits_scale

/-- The row maximum at `(i, j)` is the specification's `rowMax` of row `i`. -/
theorem maxColK_scores_apply (i : Fin 256) (j : Fin 1024) :
    maxColK (scoresK Q K) (ix2 i j) = AttnSpec.rowMax (fun e => Q (ix2 i e)) (fun j e => K (ix2 j e)) := by
  refine (maxCol_apply _ _ _ i j).trans ?_
  unfold AttnSpec.rowMax
  exact Finset.fold_congr fun j' _ => scoresK_apply Q K i j'

/-- The exponential at `(i, j)` is the specification's `expo`. -/
theorem exposK_apply (i : Fin 256) (j : Fin 1024) :
    exposK Q K (ix2 i j) = AttnSpec.expo (fun e => Q (ix2 i e)) (fun j e => K (ix2 j e)) j := by
  refine (exp_apply _ _).trans ?_
  unfold AttnSpec.expo
  refine congrArg Ideal.exp ?_
  refine (subf_apply _ _ _).trans ?_
  exact congrArg₂ (· - ·) (scoresK_apply Q K i j) (maxColK_scores_apply Q K i j)

/-- The weight at `(i, j)` is the specification's `prob`. -/
theorem weightsK_apply (i : Fin 256) (j : Fin 1024) :
    weightsK Q K (ix2 i j) = AttnSpec.prob (fun e => Q (ix2 i e)) (fun j e => K (ix2 j e)) j := by
  refine (truncf_apply (ψ := .bf16) _ bitsLt_bf16_f32 (ix2 i j)).trans ?_
  refine (divf_apply _ _ _).trans ?_
  unfold AttnSpec.prob AttnSpec.denom
  refine congrArg₂ Ideal.div (exposK_apply Q K i j) ?_
  refine (sumCol_apply _ _ _ i j).trans ?_
  exact Finset.sum_congr rfl fun j' _ => exposK_apply Q K i j'

/-- The body's rank-2 result at `(i, d)` is the specification's `rowAttn` of row `i` at column `d`. -/
theorem attnK_apply (i : Fin 256) (d : Fin 3072) :
    attnK Q K V (ix2 i d)
      = AttnSpec.rowAttn (fun e => Q (ix2 i e)) (fun j e => K (ix2 j e)) (fun j e => V (ix2 j e)) d := by
  refine (matmul_DV_apply _ V i d).trans ?_
  unfold AttnSpec.rowAttn
  exact Finset.sum_congr rfl fun j _ => congrArg (· * V (ix2 j d)) (weightsK_apply Q K i j)

end Stages

/-- The kernel's stored value is the rank-2 result of the operands less their unit axis, with the unit axis put back. -/
theorem k1_pay1_eq (q0 : Vec Ideal S1x256x3072 .bf16) (k0 v0 : Vec Ideal S1x1024x3072 .bf16) :
    k1_pay1 (F := Ideal) q0 k0 v0
      = shapeCast S1x256x3072
          (attnK (shapeCast S256x3072 q0 shapeCasts_S1x256x3072_S256x3072)
            (shapeCast S1024x3072 k0 shapeCasts_S1x1024x3072_S1024x3072)
            (shapeCast S1024x3072 v0 shapeCasts_S1x1024x3072_S1024x3072))
          shapeCasts_S256x3072_S1x256x3072 := rfl

/-- THE ATTENTION KERNEL'S STORED VALUE AT `(0, i, d)`: the softmax-weighted sum of the value rows for query row `i`,
    at column `d`. -/
theorem attn_pay (q0 : Vec Ideal S1x256x3072 .bf16) (k0 v0 : Vec Ideal S1x1024x3072 .bf16) (i : Fin 256) (d : Fin 3072) :
    k1_pay1 (F := Ideal) q0 k0 v0 (ix3 (0 : Fin 1) i d)
      = Cert.AttnSpec.rowAttn (fun e => q0 (ix3 (0 : Fin 1) i e)) (fun j e => k0 (ix3 (0 : Fin 1) j e))
          (fun j e => v0 (ix3 (0 : Fin 1) j e)) d := by
  rw [k1_pay1_eq]
  refine (shapeCast_ab_1ab_apply _ _ (0 : Fin 1) i d).trans ?_
  refine (attnK_apply _ _ _ i d).trans ?_
  have hq : (fun e => shapeCast S256x3072 q0 shapeCasts_S1x256x3072_S256x3072 (ix2 i e))
      = fun e => q0 (ix3 (0 : Fin 1) i e) := funext fun e => shapeCast_1ab_ab_apply _ _ i e
  have hk : (fun j e => shapeCast S1024x3072 k0 shapeCasts_S1x1024x3072_S1024x3072 (ix2 j e))
      = fun j e => k0 (ix3 (0 : Fin 1) j e) := funext fun j => funext fun e => shapeCast_1ab_ab_apply _ _ j e
  have hv : (fun j e => shapeCast S1024x3072 v0 shapeCasts_S1x1024x3072_S1024x3072 (ix2 j e))
      = fun j e => v0 (ix3 (0 : Fin 1) j e) := funext fun j => funext fun e => shapeCast_1ab_ab_apply _ _ j e
  rw [hq, hk, hv]

end Cert.KernelIdeal.BodyValue

end
-- ==== Proof.AttnArray.lean ====
/-
  The attention kernel's result array after its last grid point, as one function of the projected array the region finds.

  The grid has 4 × 4 points, point `t = 4·b + s`. The query window holds rows `256·s … 256·s + 255` of batch `b` of the
  projected array `[4, 3072, 3072]`, the key window rows `1024 … 2047` of that batch, the value window rows
  `2048 … 3071`; the body leaves in the output window the block whose element `(0, i, d)` is the softmax-weighted sum
  `rowAttn` of the loaded query row `i` against the loaded key and value rows, at column `d`. That block is written
  back to rows `256·s … 256·s + 255` of batch `b` of the attention array `[4, 1024, 3072]`. So what point `t` writes
  back is block `t` of ONE whole-array function of the projected array; the 16 blocks tile the array (the point
  covering `[b, i, ·]` is `4·b + i / 256`); hence the array ends holding that function.
-/
import proofs.«180274_j86199993631019_2_alg».proof.Proof.KernelIdealAttn
import proofs.«180274_j86199993631019_2_alg».proof.Proof.AttnBody
import proofs.«180274_j86199993631019_2_alg».proof.Proof.Spec
import Idealize.ShloMosaic.Lib.Pipeline.Value

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open Cert.AttnSpec

/-- The whole attention array of a projected array `p : [4, 3072, 3072]`: at `[b, i, d]`, the softmax-weighted sum
    of batch `b`'s value rows for its query row `i`, at column `d`. -/
def attnArr (p : S4x3072x3072.Idx → EReal) : S4x1024x3072.Idx → EReal :=
  fun o => rowAttn (fun e => p (ix3 (o 0) (qRow (o 1)) e)) (fun j e => p (ix3 (o 0) (kRow j) e))
    (fun j e => p (ix3 (o 0) (vRow j) e)) (o 2)

/-- The softmax-weighted sum depends only on the query row, the key rows and the value rows. -/
theorem rowAttn_congr {q q' : Fin 3072 → EReal} {k k' v v' : Fin 1024 → Fin 3072 → EReal} (hq : q = q') (hk : k = k')
    (hv : v = v') (d : Fin 3072) : rowAttn q k v d = rowAttn q' k' v' d := by
  subst hq hk hv; rfl

/-- The zero offsets of a whole-block rectangle, as the constant function. -/
theorem zeros3 : (![0, 0, 0] : Fin 3 → Nat) = fun _ => 0 := funext fun a => by fin_cases a <;> rfl

/-- The four windows' block indices at point `t = 4·b + s`: the query and output windows are at `(b, s, 0)`, the key
    window at `(b, 1, 0)`, the value window at `(b, 2, 0)`. -/
theorem attn_index_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 1 ∧ win1_1.index t (2 : Fin 3) = 0
    ∧ win1_2.index t (0 : Fin 3) = t.val / 4 ∧ win1_2.index t (1 : Fin 3) = 2 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- Element `(0, i, e)` of the query window's block at point `t = 4·b + s` is element `(b, 256·s + i, e)` of the
    projected array. -/
theorem attnBlk0_apply (c : Dev nD) (t : Fin cfg1.N) (i : Fin 256) (e : Fin 3072) (k : S4x3072x3072.Idx)
    (hk0 : (k 0).val = t.val / 4) (hk1 : (k 1).val = 256 * (t.val % 4) + i.val) (hk2 : (k 2).val = e.val) :
    (attnBlk V c 0 t : S1x256x3072.Idx → EReal) (ix3 (0 : Fin 1) i e) = (V c main_v3 : S4x3072x3072.Idx → EReal) k := by
  obtain ⟨e0, e1, e2, -⟩ := attn_index_facts t
  unfold attnBlk
  rw [View.read_apply]
  show (V c main_v3 : S4x3072x3072.Idx → EReal) _ = V c main_v3 _
  congr 1
  funext a; apply Fin.ext
  match a with
  | ⟨0, _⟩ => show win1_0.index t (0 : Fin 3) * 1 + 1 * 0 = (k 0).val; rw [e0, hk0]; omega
  | ⟨1, _⟩ => show win1_0.index t (1 : Fin 3) * 256 + 1 * i.val = (k 1).val; rw [e1, hk1]; omega
  | ⟨2, _⟩ => show win1_0.index t (2 : Fin 3) * 3072 + 1 * e.val = (k 2).val; rw [e2, hk2]; omega

/-- Element `(0, j, e)` of the key window's block at point `t = 4·b + s` is element `(b, 1024 + j, e)` of the
    projected array. -/
theorem attnBlk1_apply (c : Dev nD) (t : Fin cfg1.N) (j : Fin 1024) (e : Fin 3072) (k : S4x3072x3072.Idx)
    (hk0 : (k 0).val = t.val / 4) (hk1 : (k 1).val = 1024 + j.val) (hk2 : (k 2).val = e.val) :
    (attnBlk V c 1 t : S1x1024x3072.Idx → EReal) (ix3 (0 : Fin 1) j e) = (V c main_v3 : S4x3072x3072.Idx → EReal) k := by
  obtain ⟨-, -, -, e0, e1, e2, -⟩ := attn_index_facts t
  unfold attnBlk
  rw [View.read_apply]
  show (V c main_v3 : S4x3072x3072.Idx → EReal) _ = V c main_v3 _
  congr 1
  funext a; apply Fin.ext
  match a with
  | ⟨0, _⟩ => show win1_1.index t (0 : Fin 3) * 1 + 1 * 0 = (k 0).val; rw [e0, hk0]; omega
  | ⟨1, _⟩ => show win1_1.index t (1 : Fin 3) * 1024 + 1 * j.val = (k 1).val; rw [e1, hk1]; omega
  | ⟨2, _⟩ => show win1_1.index t (2 : Fin 3) * 3072 + 1 * e.val = (k 2).val; rw [e2, hk2]; omega

/-- Element `(0, j, e)` of the value window's block at point `t = 4·b + s` is element `(b, 2048 + j, e)` of the
    projected array. -/
theorem attnBlk2_apply (c : Dev nD) (t : Fin cfg1.N) (j : Fin 1024) (e : Fin 3072) (k : S4x3072x3072.Idx)
    (hk0 : (k 0).val = t.val / 4) (hk1 : (k 1).val = 2048 + j.val) (hk2 : (k 2).val = e.val) :
    (attnBlk V c 2 t : S1x1024x3072.Idx → EReal) (ix3 (0 : Fin 1) j e) = (V c main_v3 : S4x3072x3072.Idx → EReal) k := by
  obtain ⟨-, -, -, -, -, -, e0, e1, e2, -⟩ := attn_index_facts t
  unfold attnBlk
  rw [View.read_apply]
  show (V c main_v3 : S4x3072x3072.Idx → EReal) _ = V c main_v3 _
  congr 1
  funext a; apply Fin.ext
  match a with
  | ⟨0, _⟩ => show win1_2.index t (0 : Fin 3) * 1 + 1 * 0 = (k 0).val; rw [e0, hk0]; omega
  | ⟨1, _⟩ => show win1_2.index t (1 : Fin 3) * 1024 + 1 * j.val = (k 1).val; rw [e1, hk1]; omega
  | ⟨2, _⟩ => show win1_2.index t (2 : Fin 3) * 3072 + 1 * e.val = (k 2).val; rw [e2, hk2]; omega

/-- What point `t` writes back is block `t` of the whole attention array. -/
theorem attnFlushed_eq (c : Dev nD) (t : Fin cfg1.N) :
    (attnDat (F := Ideal) V c).flushed 3 t
      = ((cfg1.win 3).blk t).view.read (Elt Ideal) (attnArr (V c main_v3)) := by
  show (cfg1.win 3).cut (grid1.coords t) ((attnDat V c).after 3 t) = _
  rw [attnAfter_3]
  unfold attnOut
  rw [View.canon_unit_zero zeros3]
  simp only [View.ld_unit_zero (S := S1x256x3072) zeros3, View.ld_unit_zero (S := S1x1024x3072) zeros3]
  funext j
  obtain ⟨z, i, d, rfl⟩ : ∃ (z : Fin 1) (i : Fin 256) (d : Fin 3072), j = ix3 z i d := ⟨j 0, j 1, j 2, eq_ix3 j⟩
  obtain rfl : z = 0 := Subsingleton.elim _ _
  obtain ⟨-, -, -, -, -, -, -, -, -, e0, e1, e2⟩ := attn_index_facts t
  have ht : t.val < 16 := Nat.lt_of_lt_of_eq t.isLt N_1
  have hb : t.val / 4 < 4 := by omega
  have hs : 256 * (t.val % 4) + i.val < 1024 := by have := i.isLt; omega
  have hemb : ((cfg1.win 3).blk t).view.emb (ix3 (0 : Fin 1) i d)
      = (ix3 (⟨t.val / 4, hb⟩ : Fin 4) (⟨256 * (t.val % 4) + i.val, hs⟩ : Fin 1024) d : S4x1024x3072.Idx) := by
    funext a; apply Fin.ext
    match a with
    | ⟨0, _⟩ => show win1_3.index t (0 : Fin 3) * 1 + 1 * 0 = t.val / 4; rw [e0]; omega
    | ⟨1, _⟩ => show win1_3.index t (1 : Fin 3) * 256 + 1 * i.val = 256 * (t.val % 4) + i.val; rw [e1]; omega
    | ⟨2, _⟩ => show win1_3.index t (2 : Fin 3) * 3072 + 1 * d.val = d.val; rw [e2]; omega
  rw [View.read_apply]
  refine Eq.trans ?_ (congrArg (attnArr (V c main_v3)) hemb).symm
  show k1_pay1 (F := Ideal) (attnBlk V c 0 t) (attnBlk V c 1 t) (attnBlk V c 2 t) (ix3 (0 : Fin 1) i d) = _
  refine (Cert.KernelIdeal.BodyValue.attn_pay _ _ _ i d).trans ?_
  unfold attnArr
  exact rowAttn_congr
    (funext fun e => attnBlk0_apply V c t i e _ rfl rfl rfl)
    (funext fun j => funext fun e => attnBlk1_apply V c t j e _ rfl rfl rfl)
    (funext fun j => funext fun e => attnBlk2_apply V c t j e _ rfl rfl rfl) d

/-- An index of the attention array is in point `t`'s block iff each coordinate is in the block's range on its axis. -/
theorem attn_mem_blk (t : Fin cfg1.N) (o : S4x1024x3072.Idx) :
    o ∈ ((cfg1.win 3).blk t).view.set ↔ ∀ a : Fin 3, win1_3.index t a * S1x256x3072.size a ≤ (o a).val
      ∧ (o a).val < win1_3.index t a * S1x256x3072.size a + S1x256x3072.size a := by
  show o ∈ ((View.whole main_v4).slice (win1_3.rect t)).set ↔ _
  rw [View.set_slice_whole, Rect.mem_set_unit]
  exact Iff.rfl

/-- Every index `[b, i, d]` of the attention array is in the block of point `4·b + i / 256`. -/
theorem attn_cover (o : S4x1024x3072.Idx) :
    ∃ t : Fin cfg1.N, (cfg1.win 3).flush t = true ∧ o ∈ ((cfg1.win 3).blk t).view.set := by
  have ho0 : (o 0).val < 4 := (o 0).isLt
  have ho1 : (o 1).val < 1024 := (o 1).isLt
  have ho2 : (o 2).val < 3072 := (o 2).isLt
  obtain ⟨t, ht⟩ : ∃ t : Fin cfg1.N, t.val = 4 * (o 0).val + (o 1).val / 256 :=
    ⟨⟨4 * (o 0).val + (o 1).val / 256, by rw [show cfg1.N = 16 from N_1]; omega⟩, rfl⟩
  obtain ⟨-, -, -, -, -, -, -, -, -, e0, e1, e2⟩ := attn_index_facts t
  refine ⟨t, flush1_3 t, ?_⟩
  rw [attn_mem_blk]
  intro a
  match a with
  | ⟨0, _⟩ =>
    show win1_3.index t (0 : Fin 3) * 1 ≤ (o 0).val ∧ (o 0).val < win1_3.index t (0 : Fin 3) * 1 + 1
    rw [e0, ht]; omega
  | ⟨1, _⟩ =>
    show win1_3.index t (1 : Fin 3) * 256 ≤ (o 1).val ∧ (o 1).val < win1_3.index t (1 : Fin 3) * 256 + 256
    rw [e1, ht]; omega
  | ⟨2, _⟩ =>
    show win1_3.index t (2 : Fin 3) * 3072 ≤ (o 2).val ∧ (o 2).val < win1_3.index t (2 : Fin 3) * 3072 + 3072
    rw [e2]; omega

/-- After the last point the attention array holds the attention of the projected array the region finds. -/
theorem attnFinal_arr (c : Dev nD) :
    (attnDat (F := Ideal) V c).arrAt 3 cfg1.N = attnArr (V c main_v3) :=
  (attnDat (F := Ideal) V c).arrAt_eq_of_cover 3 (attnArr (V c main_v3)) (fun t _ => attnFlushed_eq V c t) attn_cover

/-- The attention array at `[b, i, d]` after the last point. -/
theorem attnFinal (c : Dev nD) (b : Fin 4) (i : Fin 1024) (d : Fin 3072) :
    (attnDat (F := Ideal) V c).arrAt 3 cfg1.N (ix3 b i d)
      = Cert.AttnSpec.rowAttn (fun e => V c main_v3 (ix3 b (Cert.AttnSpec.qRow i) e))
          (fun j e => V c main_v3 (ix3 b (Cert.AttnSpec.kRow j) e)) (fun j e => V c main_v3 (ix3 b (Cert.AttnSpec.vRow j) e)) d := by
  rw [attnFinal_arr]
  rfl

end Cert.KernelIdeal.Regions

end
-- ==== Proof.KernelValue.lean ====
/-
  The idealized kernel program's result array is the specification's attention array of the two argument arrays.
  Followed backwards through the run: an entry of the result array is the softmax-weighted row sum of the attention
  region's entry contents of the regrouped projected array (query row `i`, key rows `1024 + j`, value rows
  `2048 + j` of batch `b`); that array's entry `[b, n, h]` is entry `[3072·b + n, h]` of what the projection region
  left; that is the inner product of row `3072·b + n` of the flattened input with row `h` of the weight as the
  projection region found them; and the flattened input's row `3072·b + n` is the input's row `n` of batch `b`, the
  weight unchanged by its change of format. So every entry of the regrouped array is `proj x w b n h`.
-/
import proofs.«180274_j86199993631019_2_alg».proof.Proof.KernelIdealRun
import proofs.«180274_j86199993631019_2_alg».proof.Proof.HostReads
import proofs.«180274_j86199993631019_2_alg».proof.Proof.ProjArray
import proofs.«180274_j86199993631019_2_alg».proof.Proof.AttnArray
import proofs.«180274_j86199993631019_2_alg».proof.Proof.Spec

noncomputable section

open scoped BigOperators

namespace Cert.KernelIdeal.Regions

open Cert.KernelIdeal Cert.KernelIdeal.Gen Cert.AttnSpec
open Idealize.ShloMosaic Idealize.ShloMosaic.TcCoe Idealize.ShloMosaic.ValueIdx Idealize.SL.Sem

variable (m : (ℓ : Loc nD τ sig) → Buf (Elt Ideal) ℓ)

/-- Every entry of the regrouped projected array, as the attention region finds it, is the projection of the
    launch contents of the two arguments. -/
theorem projected_entry (c : Dev nD) (b : Fin 4) (n h : Fin 3072) :
    (V3 m c main_v3 : S4x3072x3072.Idx → EReal) (ix3 b n h)
      = proj (m ((c.tc : Thread nD τ).loc main_arg0)) (m ((c.tc : Thread nD τ).loc main_arg1)) b n h := by
  have hsum : flatProj (V1 m c main_v0) (V1 m c main_v1) (⟨b.val * 3072 + n.val, by omega⟩ : Fin 12288) h
      = proj (m ((c.tc : Thread nD τ).loc main_arg0)) (m ((c.tc : Thread nD τ).loc main_arg1)) b n h := by
    unfold flatProj proj
    exact Finset.sum_congr rfl fun d _ =>
      congrArg₂ (· * ·) (Cert.KernelIdeal.HostValue.flat_input (W0 m c) b n d) (Cert.KernelIdeal.HostValue.weight_kept (W0 m c) h d)
  exact (Cert.KernelIdeal.HostValue.regrouped (W2 m c) b n h).trans
    ((congrFun (W2_arr m c 2) _).trans ((projFinal (V1 m) c _ h).trans hsum))

/-- The result array the run ends with is the specification's attention array. -/
theorem result_eq (c : Dev nD) :
    attnResult m c = attn (m ((c.tc : Thread nD τ).loc main_arg0)) (m ((c.tc : Thread nD τ).loc main_arg1)) := by
  funext o
  obtain ⟨b, i, d, rfl⟩ : ∃ (b : Fin 4) (i : Fin 1024) (d : Fin 3072), o = ix3 b i d := ⟨o 0, o 1, o 2, eq_ix3 o⟩
  rw [attn_ix3]
  unfold attnResult attnAt
  refine (attnFinal (V3 m) c b i d).trans ?_
  have hq : (fun e : Fin 3072 => (V3 m c main_v3 : S4x3072x3072.Idx → EReal) (ix3 b (qRow i) e))
      = fun e => proj (m ((c.tc : Thread nD τ).loc main_arg0)) (m ((c.tc : Thread nD τ).loc main_arg1)) b (qRow i) e :=
    funext fun e => projected_entry m c b (qRow i) e
  have hk : (fun (j : Fin 1024) (e : Fin 3072) => (V3 m c main_v3 : S4x3072x3072.Idx → EReal) (ix3 b (kRow j) e))
      = fun j e => proj (m ((c.tc : Thread nD τ).loc main_arg0)) (m ((c.tc : Thread nD τ).loc main_arg1)) b (kRow j) e :=
    funext fun j => funext fun e => projected_entry m c b (kRow j) e
  have hv : (fun (j : Fin 1024) (e : Fin 3072) => (V3 m c main_v3 : S4x3072x3072.Idx → EReal) (ix3 b (vRow j) e))
      = fun j e => proj (m ((c.tc : Thread nD τ).loc main_arg0)) (m ((c.tc : Thread nD τ).loc main_arg1)) b (vRow j) e :=
    funext fun j => funext fun e => projected_entry m c b (vRow j) e
  exact congrFun (congr (congr (congrArg rowAttn hq) hk) hv) d

end Cert.KernelIdeal.Regions

end
-- ==== Proof.RefProj.lean ====
/-
  The reference program's projection stage and its three row slices, read at coordinates.

  The first `dot_general` contracts the last axis of `x : [4, 3072, 1024]` with the last axis of `w : [3072, 1024]`:
  its element `[b, n, h]` is `∑ d, x[b, n, d] · w[h, d]`, the specification's `proj x w b n h`. The three slices
  cut the ROW axis of that `[4, 3072, 3072]` array in thirds: slice one reads row `i`, slice two row `1024 + i`,
  slice three row `2048 + i`, that is the query, key and value rows of the specification.
-/
import proofs.«180274_j86199993631019_2_alg».proof.Proof.Gen.ReferenceIdeal.Read
import proofs.«180274_j86199993631019_2_alg».proof.Proof.Spec

noncomputable section

open scoped BigOperators

namespace Cert.ReferenceIdeal.RefValue

open Cert.ReferenceIdeal Cert.ReferenceIdeal.Read Cert.AttnSpec Idealize.ShloMosaic Idealize.ShloMosaic.ValueIdx

variable (x : (⟨S4x3072x1024, .f32⟩ : BufTy).Contents (Elt Ideal)) (w : (⟨S3072x1024, .f32⟩ : BufTy).Contents (Elt Ideal))

/-- The projection at `[b, n, h]` is `∑ d, x[b, n, d] · w[h, d]`. -/
theorem proj_stage (b : Fin 4) (n h : Fin 3072) :
    val_main_v0 (F := Ideal) x w (ix3 b n h) = proj x w b n h := by
  rw [val_main_v0_apply]
  unfold proj
  refine Finset.sum_congr rfl fun d _ => ?_
  have el : lidx_main_v0 (ix3 b n h) d = ix3 b n d :=
    funext fun a => Fin.ext (by match a with | ⟨0, _⟩ => rfl | ⟨1, _⟩ => rfl | ⟨2, _⟩ => rfl)
  have er : ridx_main_v0 (ix3 b n h) d = ix2 h d :=
    funext fun a => Fin.ext (by match a with | ⟨0, _⟩ => rfl | ⟨1, _⟩ => rfl)
  rw [el, er]

/-- The first slice at `[b, i, e]` is the projected query row `i` of batch `b` at column `e`. -/
theorem query_stage (b : Fin 4) (i : Fin 1024) (e : Fin 3072) :
    val_main_v1 (F := Ideal) x w (ix3 b i e) = proj x w b (qRow i) e := by
  rw [val_main_v1_apply]
  have ei : idx_main_v1 (ix3 b i e) = ix3 b (qRow i) e :=
    funext fun a => Fin.ext (by match a with | ⟨0, _⟩ => rfl | ⟨1, _⟩ => rfl | ⟨2, _⟩ => rfl)
  rw [ei, proj_stage]

/-- The second slice at `[b, j, e]` is the projected key row `j` of batch `b` at column `e`. -/
theorem key_stage (b : Fin 4) (j : Fin 1024) (e : Fin 3072) :
    val_main_v2 (F := Ideal) x w (ix3 b j e) = proj x w b (kRow j) e := by
  rw [val_main_v2_apply]
  have ei : idx_main_v2 (ix3 b j e) = ix3 b (kRow j) e :=
    funext fun a => Fin.ext (by match a with | ⟨0, _⟩ => rfl | ⟨1, _⟩ => rfl | ⟨2, _⟩ => rfl)
  rw [ei, proj_stage]

/-- The third slice at `[b, j, e]` is the projected value row `j` of batch `b` at column `e`. -/
theorem value_stage (b : Fin 4) (j : Fin 1024) (e : Fin 3072) :
    val_main_v3 (F := Ideal) x w (ix3 b j e) = proj x w b (vRow j) e := by
  rw [val_main_v3_apply]
  have ei : idx_main_v3 (ix3 b j e) = ix3 b (vRow j) e :=
    funext fun a => Fin.ext (by match a with | ⟨0, _⟩ => rfl | ⟨1, _⟩ => rfl | ⟨2, _⟩ => rfl)
  rw [ei, proj_stage]

end Cert.ReferenceIdeal.RefValue

end
-- ==== Proof.RefScale.lean ====
/-
  The reference program's softmax scale. The program computes `1.0 / sqrt(1024.0)` on scalars and broadcasts it.
  The word `0x44800000` denotes the real `1024 = 32²`, whose square root is `32`; the word `0x3F800000` denotes `1`;
  so the quotient is the real `1/32`, the specification's `scale`.
-/
import proofs.«180274_j86199993631019_2_alg».proof.Proof.Gen.ReferenceIdeal.Read
import proofs.«180274_j86199993631019_2_alg».proof.Proof.Spec

noncomputable section

open scoped BigOperators

namespace Cert.ReferenceIdeal.RefValue

open Cert.ReferenceIdeal Cert.ReferenceIdeal.Read Cert.AttnSpec Idealize.ShloMosaic Idealize.ShloMosaic.ValueIdx

/-- The word `0x3F800000` denotes `1`. -/
theorem ofBits_one : Ideal.ofBits .f32 0x3F800000#32 = 1 := by
  simp [Ideal.ofBits, Ideal.ieee, -EReal.coe_mul]; norm_num

/-- The word `0x44800000` denotes the real `1024`. -/
theorem ofBits_1024 : Ideal.ofBits .f32 0x44800000#32 = ((1024 : ℝ) : EReal) := by
  simp [Ideal.ofBits, Ideal.ieee, -EReal.coe_mul]; norm_num

/-- The word `0xFF800000` denotes `-∞`, the least extended real. -/
theorem ofBits_negInf : Ideal.ofBits .f32 0xFF800000#32 = ⊥ := by
  simp [Ideal.ofBits, Ideal.ieee]

/-- `√1024 = 32`. -/
theorem sqrt_1024 : Real.sqrt 1024 = 32 := by
  rw [show (1024 : ℝ) = 32 ^ 2 by norm_num, Real.sqrt_sq (by norm_num)]

/-- `1 / √1024` over the extended reals is the real `1/32`. -/
theorem div_one_sqrt_1024 : Ideal.div 1 (Ideal.sqrt ((1024 : ℝ) : EReal)) = scale := by
  rw [Ideal.sqrt_coe, if_neg (by norm_num), sqrt_1024, Ideal.div_coe (by norm_num), one_mul]
  rfl

/-- The program's scalar `1.0 / sqrt(1024.0)` is the specification's scale `1/32`. -/
theorem scale_stage (i : S_.Idx) : val_main_v5 (F := Ideal) i = scale := by
  rw [val_main_v5_apply, val_main_cst_0_apply, val_main_v4_apply, val_main_cst_apply]
  simp only [Ideal.hostDivf_def, Ideal.hostUnary_sqrt_def, Ideal.ofBits_def]
  rw [ofBits_one, ofBits_1024, div_one_sqrt_1024]

/-- The broadcast scale at any index of the score array. -/
theorem scale_bcast_stage (i : S4x1024x1024.Idx) : val_main_v7 (F := Ideal) i = scale := by
  rw [val_main_v7_apply, scale_stage]

end Cert.ReferenceIdeal.RefValue

end
-- ==== Proof.RefSoftmax.lean ====
/-
  The reference program's softmax, one query row at a time, read at coordinates.

  For batch `b` and query row `i`, write `q` for the projected query row and `k j` for the projected key rows.
  * The second `dot_general` contracts the column axis of the query and key slices, and the product with the broadcast
    scale gives, at `[b, i, j]`, `(∑ e, q e · k j e) · (1/32)`: the specification's `score q k j`.
  * The `reduce` with a maximum body over the last axis, from the initial value `-∞`, is at `[b, i]` the fold of `max`
    from `⊥` over the scores `j ↦ score q k j`: the specification's `rowMax q k`. The program then takes the maximum of
    that with a broadcast `-∞`, which changes nothing (`max ⊥ m = m`), and broadcasts it back along the last axis.
  * The exponential of the score less the maximum is `expo q k j`; the `reduce` with an add body from the initial
    value `0` is `0 + ∑ j, expo q k j = denom q k`; the quotient is `prob q k j`.
-/
import proofs.«180274_j86199993631019_2_alg».proof.Proof.RefProj
import proofs.«180274_j86199993631019_2_alg».proof.Proof.RefScale

noncomputable section

open scoped BigOperators

namespace Cert.ReferenceIdeal.RefValue

open Cert.ReferenceIdeal Cert.ReferenceIdeal.Read Cert.AttnSpec Idealize.ShloMosaic Idealize.ShloMosaic.ValueIdx

variable (x : (⟨S4x3072x1024, .f32⟩ : BufTy).Contents (Elt Ideal)) (w : (⟨S3072x1024, .f32⟩ : BufTy).Contents (Elt Ideal))

/-- The projected query row `i` of batch `b`. -/
abbrev qOf (b : Fin 4) (i : Fin 1024) : Fin 3072 → EReal := fun e => proj x w b (qRow i) e
/-- The projected key rows of batch `b`. -/
abbrev kOf (b : Fin 4) : Fin 1024 → Fin 3072 → EReal := fun j e => proj x w b (kRow j) e
/-- The projected value rows of batch `b`. -/
abbrev vOf (b : Fin 4) : Fin 1024 → Fin 3072 → EReal := fun j e => proj x w b (vRow j) e

/-- The scaled score at `[b, i, j]` is `(∑ e, q e · k j e) · (1/32)`. -/
theorem score_stage (b : Fin 4) (i j : Fin 1024) :
    val_main_v8 (F := Ideal) x w (ix3 b i j) = score (qOf x w b i) (kOf x w b) j := by
  rw [val_main_v8_apply, Ideal.mulf_def, scale_bcast_stage, val_main_v6_apply]
  unfold score
  refine congrArg (· * scale) (Finset.sum_congr rfl fun e _ => ?_)
  have el : lidx_main_v6 (ix3 b i j) e = ix3 b i e :=
    funext fun a => Fin.ext (by match a with | ⟨0, _⟩ => rfl | ⟨1, _⟩ => rfl | ⟨2, _⟩ => rfl)
  have er : ridx_main_v6 (ix3 b i j) e = ix3 b j e :=
    funext fun a => Fin.ext (by match a with | ⟨0, _⟩ => rfl | ⟨1, _⟩ => rfl | ⟨2, _⟩ => rfl)
  rw [el, er, query_stage, key_stage]

/-- The score array's last axis reduces away to the `[4, 1024]` array of rows. -/
theorem reduces_lastAxis : S4x1024x1024.Reduces [2] S4x1024 := by decide

/-- The row index `[b, i]` with coordinate `j` put back on the last axis is `[b, i, j]`. -/
theorem lift_row (b : Fin 4) (i j : Fin 1024) : reduces_lastAxis.lift (ix2 b i) j = ix3 b i j := by
  funext c; apply Fin.ext
  fin_cases c <;> rfl

/-- The maximum-reduce from `-∞` over the last axis at `[b, i]` is the greatest score of the row. -/
theorem rowMax_stage (b : Fin 4) (i : Fin 1024) :
    val_main_v9 (F := Ideal) x w (ix2 b i) = rowMax (qOf x w b i) (kOf x w b) := by
  unfold val_main_v9
  rw [Host.reduce_eq_fold_single FloatOps.maximumf _ _ Gen.reducesTo_S4x1024x1024_S4x1024_d2 reduces_lastAxis Gen.h_S_,
    val_main_cst_1_apply, Ideal.ofBits_def, ofBits_negInf]
  have hf : (val_main_v8 (F := Ideal) x w ∘ reduces_lastAxis.lift (ix2 b i))
      = fun j : Fin 1024 => score (qOf x w b i) (kOf x w b) j :=
    funext fun j => (congrArg (val_main_v8 (F := Ideal) x w) (lift_row b i j)).trans (score_stage x w b i j)
  rw [hf]
  rfl

/-- The maximum with the broadcast `-∞` leaves the row's greatest score. -/
theorem rowMax_clamped_stage (b : Fin 4) (i : Fin 1024) :
    val_main_v11 (F := Ideal) x w (ix2 b i) = rowMax (qOf x w b i) (kOf x w b) := by
  rw [val_main_v11_apply, val_main_v10_apply, val_main_cst_2_apply, Ideal.maximumf_def, Ideal.ofBits_def, ofBits_negInf,
    rowMax_stage]
  exact max_eq_right bot_le

/-- The greatest score broadcast back along the last axis. -/
theorem rowMax_bcast_stage (b : Fin 4) (i j : Fin 1024) :
    val_main_v13 (F := Ideal) x w (ix3 b i j) = rowMax (qOf x w b i) (kOf x w b) := by
  rw [val_main_v13_apply, val_main_v12_apply]
  have ei : idx_main_v12 (idx_main_v13 (ix3 b i j)) = ix2 b i :=
    funext fun a => Fin.ext (by match a with | ⟨0, _⟩ => rfl | ⟨1, _⟩ => rfl)
  rw [ei, rowMax_clamped_stage]

/-- The exponential of the score less the row's greatest score. -/
theorem expo_stage (b : Fin 4) (i j : Fin 1024) :
    val_main_v15 (F := Ideal) x w (ix3 b i j) = expo (qOf x w b i) (kOf x w b) j := by
  rw [val_main_v15_apply, val_main_v14_apply, Ideal.hostUnary_exp_def, Ideal.subf_def, score_stage, rowMax_bcast_stage]
  rfl

/-- The add-reduce from `0` over the last axis at `[b, i]` is the sum of the row's exponentials. -/
theorem denom_stage (b : Fin 4) (i : Fin 1024) :
    val_main_v16 (F := Ideal) x w (ix2 b i) = denom (qOf x w b i) (kOf x w b) := by
  rw [val_main_v16_apply, val_main_cst_3_apply, Ideal.ofBits_def, Ideal.ofBits_zero_f32, zero_add]
  unfold denom
  refine Finset.sum_congr rfl fun j _ => ?_
  have ei : idx_main_v16 (ix2 b i) j = ix3 b i j :=
    funext fun a => Fin.ext (by match a with | ⟨0, _⟩ => rfl | ⟨1, _⟩ => rfl | ⟨2, _⟩ => rfl)
  rw [ei, expo_stage]

/-- The sum of the row's exponentials broadcast back along the last axis. -/
theorem denom_bcast_stage (b : Fin 4) (i j : Fin 1024) :
    val_main_v18 (F := Ideal) x w (ix3 b i j) = denom (qOf x w b i) (kOf x w b) := by
  rw [val_main_v18_apply, val_main_v17_apply]
  have ei : idx_main_v17 (idx_main_v18 (ix3 b i j)) = ix2 b i :=
    funext fun a => Fin.ext (by match a with | ⟨0, _⟩ => rfl | ⟨1, _⟩ => rfl)
  rw [ei, denom_stage]

/-- The softmax weight at `[b, i, j]`. -/
theorem prob_stage (b : Fin 4) (i j : Fin 1024) :
    val_main_v19 (F := Ideal) x w (ix3 b i j) = prob (qOf x w b i) (kOf x w b) j := by
  rw [val_main_v19_apply, Ideal.hostDivf_def, expo_stage, denom_bcast_stage]
  rfl

end Cert.ReferenceIdeal.RefValue

end
-- ==== Proof.RefSide.lean ====
/-
  The reference program's result is the specification's attention array.

  The last `dot_general` contracts the last axis of the softmax weights `[4, 1024, 1024]` with the row axis of the value
  slice `[4, 1024, 3072]`: at `[b, i, d]` it is `∑ j, prob q k j · v j d`, the specification's `rowAttn q k v d` for the
  projected query row `i` and the projected key and value rows of batch `b`. Every index of the result is `[b, i, d]`
  for its three coordinates, so the two arrays are equal.
-/
import proofs.«180274_j86199993631019_2_alg».proof.Proof.RefSoftmax

noncomputable section

open scoped BigOperators

namespace Cert.ReferenceIdeal.RefValue

open Cert.ReferenceIdeal Cert.ReferenceIdeal.Read Cert.AttnSpec Idealize.ShloMosaic Idealize.ShloMosaic.ValueIdx

/-- The result at `[b, i, d]` is the attention output there. -/
theorem attn_stage (x : (⟨S4x3072x1024, .f32⟩ : BufTy).Contents (Elt Ideal)) (w : (⟨S3072x1024, .f32⟩ : BufTy).Contents (Elt Ideal))
    (b : Fin 4) (i : Fin 1024) (d : Fin 3072) :
    val_main_v20 (F := Ideal) x w (ix3 b i d) = attnAt x w b i d := by
  rw [val_main_v20_apply]
  unfold attnAt rowAttn
  refine Finset.sum_congr rfl fun j _ => ?_
  have el : lidx_main_v20 (ix3 b i d) j = ix3 b i j :=
    funext fun a => Fin.ext (by match a with | ⟨0, _⟩ => rfl | ⟨1, _⟩ => rfl | ⟨2, _⟩ => rfl)
  have er : ridx_main_v20 (ix3 b i d) j = ix3 b j d :=
    funext fun a => Fin.ext (by match a with | ⟨0, _⟩ => rfl | ⟨1, _⟩ => rfl | ⟨2, _⟩ => rfl)
  rw [el, er, prob_stage, value_stage]

/-- The reference program's result array is the specification's attention array. -/
theorem ref_eq (x : (⟨Cert.ReferenceIdeal.S4x3072x1024, .f32⟩ : BufTy).Contents (Elt Ideal)) (w : (⟨Cert.ReferenceIdeal.S3072x1024, .f32⟩ : BufTy).Contents (Elt Ideal)) :
    Cert.ReferenceIdeal.Read.val_main_v20 (F := Ideal) x w = Cert.AttnSpec.attn x w := by
  funext o
  obtain ⟨b, i, d, rfl⟩ : ∃ (b : Fin 4) (i : Fin 1024) (d : Fin 3072), o = ix3 b i d := ⟨o 0, o 1, o 2, eq_ix3 o⟩
  rw [attn_ix3, attn_stage]

end Cert.ReferenceIdeal.RefValue

end
-- ==== Proof.lean ====
/-
  The certificate's five claims.

  * The three frames. Each program runs to the end from any memory, nothing faulting, and leaves its two argument
    arrays as launched: for the kernel program (as printed, and idealized) this is the run through its four items —
    host stretch, projection region, host operation, attention region — with the result array's contents forgotten;
    for the reference it is its run with the result forgotten.
  * The idealization rewrote no operation, so there is nothing to preserve.
  * At the ideal instance, from memories that agree on the arguments, both programs end with ONE result array:
    the kernel program's run ends with the result array at the specification's attention array of the arguments
    (the run, then the value read back through the regions and host operations), and the reference's run ends with
    its last operation's value, which is the same array index by index.
-/
import proofs.«180274_j86199993631019_2_alg».proof.Defs
import proofs.«180274_j86199993631019_2_alg».proof.Proof.Gen.Kernel
import proofs.«180274_j86199993631019_2_alg».proof.Proof.Gen.KernelIdeal
import proofs.«180274_j86199993631019_2_alg».proof.Proof.Gen.ReferenceIdeal
import proofs.«180274_j86199993631019_2_alg».proof.Proof.Gen.ReferenceIdeal.Run
import proofs.«180274_j86199993631019_2_alg».proof.Proof.Gen.ReferenceIdeal.Read
import proofs.«180274_j86199993631019_2_alg».proof.Proof.Gen.Pre_finite_inputs
import proofs.«180274_j86199993631019_2_alg».proof.Proof.KernelRun
import proofs.«180274_j86199993631019_2_alg».proof.Proof.KernelIdealRun
import proofs.«180274_j86199993631019_2_alg».proof.Proof.KernelValue
import proofs.«180274_j86199993631019_2_alg».proof.Proof.RefSide

noncomputable section

namespace Cert.Proof

open Idealize.ShloMosaic Idealize.ShloMosaic.TcCoe Idealize.SL.Sem

/-- The printed kernel program runs and leaves its arguments as launched. -/
theorem frame_kernel : Cert.frame_Kernel := fun m ρ _ =>
  (θ_run Cert.Kernel.defs _ _).mono (fun _ h c => (h c).2) (Cert.Kernel.Regions.run_main (F := Bits) m ρ)

/-- The idealized kernel program runs and leaves its arguments as launched. -/
theorem frame_kernelIdeal : Cert.frame_KernelIdeal := fun m ρ _ =>
  (θ_run Cert.KernelIdeal.defs _ _).mono (fun _ h c => (h c).2) (Cert.KernelIdeal.Regions.run_main (F := Ideal) m ρ)

/-- The idealized reference runs and leaves its arguments as launched. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification's attention array of the arguments. -/
theorem algebraic : Cert.algebraic_KernelIdeal_ReferenceIdeal := by
  intro m ρ m' ρ' _ hagree
  refine ⟨fun c => Cert.AttnSpec.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (Cert.KernelIdeal.Regions.result_eq m c), (h c).2⟩)
      (Cert.KernelIdeal.Regions.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
